-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x96 : Shape := ⟨2, ![800000, 96]⟩
abbrev S192x96 : Shape := ⟨2, ![192, 96]⟩
abbrev S96 : Shape := ⟨1, ![96]⟩
abbrev S96x96 : Shape := ⟨2, ![96, 96]⟩
abbrev S288x96 : Shape := ⟨2, ![288, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S192x96 : S_.BroadcastsInDim S192x96 (![] : Fin 0 → Fin S192x96.rank)
  reducesTo_S192x96_S_d0_1 : S192x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S288x96 : S_.BroadcastsInDim S288x96 (![] : Fin 0 → Fin S288x96.rank)
  reducesTo_S288x96_S_d0_1 : S288x96.ReducesTo [0, 1] S_

variable [Facts]

def fn_part2 {F : FTy → Type} [FloatOps F] (main_arg8 : FVec F S96 .f32) (main_arg9 : FVec F S96x96 .f32) (main_arg10 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg9
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  main_v48

def fn_part1 {F : FTy → Type} [FloatOps F] (main_arg5 : FVec F S96x96 .f32) (main_arg6 : FVec F S96 .f32) (main_arg7 : FVec F S288x96 .f32) (main_arg8 : FVec F S96 .f32) (main_arg9 : FVec F S96x96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S288x96 .f32 := Host.absf main_arg7
  let main_cst_10 : FVec F S_ .f32 := constant S_ .f32 0x7F800000#32
  let main_v30 : FVec F S288x96 .f32 := broadcastInDim S288x96 ![] bcast_S_S288x96 main_cst_10
  let main_v31 : IVec S288x96 1 := cmpf .olt main_v29 main_v30
  let main_c_11 : IVec S_ 1 := constantI S_ 1 1#1
  let main_v32 : IVec S_ 1 := (fun x v => Host.reduce IntOp.andi x v reducesTo_S288x96_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x96 .f32) (main_arg1 : IVec S2x800000 32) (main_arg2 : FVec F S800000x96 .f32) (main_arg3 : FVec F S192x96 .f32) (main_arg4 : FVec F S96 .f32) (main_arg5 : FVec F S96x96 .f32) (main_arg6 : FVec F S96 .f32) (main_arg7 : FVec F S288x96 .f32) (main_arg8 : FVec F S96 .f32) (main_arg9 : FVec F S96x96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg2
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S192x96 .f32 := Host.absf main_arg3
  let main_cst_2 : FVec F S_ .f32 := constant S_ .f32 0x7F800000#32
  let main_v10 : FVec F S192x96 .f32 := broadcastInDim S192x96 ![] bcast_S_S192x96 main_cst_2
  let main_v11 : IVec S192x96 1 := cmpf .olt main_v9 main_v10
  let main_c_3 : IVec S_ 1 := constantI S_ 1 1#1
  let main_v12 : IVec S_ 1 := (fun x v => Host.reduce IntOp.andi x v reducesTo_S192x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_v13 main_v16
-- ==== Kernel.lean ====
abbrev S50000x96 : Shape := ⟨2, ![50000, 96]⟩
abbrev S2x800000 : Shape := ⟨2, ![2, 800000]⟩
abbrev S800000x96 : Shape := ⟨2, ![800000, 96]⟩
abbrev S192x96 : Shape := ⟨2, ![192, 96]⟩
abbrev S96 : Shape := ⟨1, ![96]⟩
abbrev S96x96 : Shape := ⟨2, ![96, 96]⟩
abbrev S288x96 : Shape := ⟨2, ![288, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x96 : Shape := ⟨2, ![1, 96]⟩
abbrev S5000x96 : Shape := ⟨2, ![5000, 96]⟩
abbrev S4000x96 : Shape := ⟨2, ![4000, 96]⟩

abbrev nBuf : Space → Nat
  | .hbm => 48
  | .vmem => 22
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x96, .f32⟩
  | .hbm, ⟨3, _⟩ => ⟨S192x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S288x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S50000x96, .f32⟩
  | .hbm, ⟨17, _⟩ => ⟨S800000x1, .i32⟩
  | .hbm, ⟨18, _⟩ => ⟨S50000x96, .f32⟩
  | .hbm, ⟨19, _⟩ => ⟨S50000x96, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x96, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x96, .bf16⟩
  | .hbm, ⟨38, _⟩ => ⟨S192x96, .bf16⟩
  | .hbm, ⟨39, _⟩ => ⟨S96x96, .bf16⟩
  | .hbm, ⟨40, _⟩ => ⟨S1x96, .f32⟩
  | .hbm, ⟨41, _⟩ => ⟨S1x96, .f32⟩
  | .hbm, ⟨42, _⟩ => ⟨S50000x96, .f32⟩
  | .hbm, ⟨43, _⟩ => ⟨S288x96, .bf16⟩
  | .hbm, ⟨44, _⟩ => ⟨S96x96, .bf16⟩
  | .hbm, ⟨45, _⟩ => ⟨S1x96, .f32⟩
  | .hbm, ⟨46, _⟩ => ⟨S1x96, .f32⟩
  | .hbm, ⟨47, _⟩ => ⟨S800000x96, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S192x96, .bf16⟩
  | .local _ .vmem, ⟨5, _⟩ => ⟨S1x96, .f32⟩
  | .local _ .vmem, ⟨6, _⟩ => ⟨S96x96, .bf16⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S4000x96, .bf16⟩
  | .local _ .vmem, ⟨11, _⟩ => ⟨S4000x96, .bf16⟩
  | .local _ .vmem, ⟨12, _⟩ => ⟨S4000x96, .bf16⟩
  | .local _ .vmem, ⟨13, _⟩ => ⟨S4000x96, .bf16⟩
  | .local _ .vmem, ⟨14, _⟩ => ⟨S4000x96, .f32⟩
  | .local _ .vmem, ⟨15, _⟩ => ⟨S4000x96, .f32⟩
  | .local _ .vmem, ⟨16, _⟩ => ⟨S288x96, .bf16⟩
  | .local _ .vmem, ⟨17, _⟩ => ⟨S1x96, .f32⟩
  | .local _ .vmem, ⟨18, _⟩ => ⟨S96x96, .bf16⟩
  | .local _ .vmem, ⟨19, _⟩ => ⟨S1x96, .f32⟩
  | .local _ .vmem, ⟨20, _⟩ => ⟨S4000x96, .f32⟩
  | .local _ .vmem, ⟨21, _⟩ => ⟨S4000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x96 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S288x96 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000x96 : S_.BroadcastsInDim S50000x96 (![] : Fin 0 → Fin S50000x96.rank)
  bcast_S800000_S800000x1_0 : S800000.BroadcastsInDim S800000x1 (![0] : Fin 1 → Fin S800000x1.rank)
  bitsLt_bf16_f32 : FTy.bits .bf16 < FTy.bits .f32
  bcast_S_S800000 : S_.BroadcastsInDim S800000 (![] : Fin 0 → Fin S800000.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S192x96_S96x96_0_0 : ∀ a, (![0, 0] : Fin 2 → Nat) a + S96x96.size a ≤ S192x96.size a
  h_S96x96 : 0 < S96x96.numel
  shapeCasts_S96x96_S96x96 : S96x96.ShapeCasts S96x96
  inb_S192x96_S96x96_96_0 : ∀ a, (![96, 0] : Fin 2 → Nat) a + S96x96.size a ≤ S192x96.size a
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  inb_S288x96_S96x96_0_0 : ∀ a, (![0, 0] : Fin 2 → Nat) a + S96x96.size a ≤ S288x96.size a
  inb_S288x96_S96x96_96_0 : ∀ a, (![96, 0] : Fin 2 → Nat) a + S96x96.size a ≤ S288x96.size a
  inb_S288x96_S96x96_192_0 : ∀ a, (![192, 0] : Fin 2 → Nat) a + S96x96.size a ≤ S288x96.size a
  broadcasts_S1x96_S4000x96 : S1x96.Broadcasts S4000x96
  scatter_S50000x96_S800000x1_S800000x96_1_0_0_1_wf : ScatterDims.WF S50000x96 S800000x1 S800000x96 [1] [0] [0] 1
  gather_S50000x96_S800000x1_S800000x96_1_0_n_n_0_1_196_wf : GatherDims.WF S50000x96 S800000x1 S800000x96 [1] [0] [] [0] [] 1 ![1, 96]
  dot_S5000x96_S96x96_S5000x96_1_0_0_1_n_n_wf : DotDims.WF S5000x96 S96x96 S5000x96 [1] [0] [0] [1] [] []
  dot_S4000x96_S96x96_S4000x96_1_0_0_1_n_n_wf : DotDims.WF S4000x96 S96x96 S4000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x96.size a ≤ S192x96.size a
  hwx0_2 : ∀ i : grid0.Coords, EltTy.bits .bf16 = 32 ∨ (Rect.block (s := S192x96) S192x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .bf16 = 32 ∨ (Rect.block (s := S96x96) S96x96.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x96.size a ≤ S800000x96.size a
  hwx1_0 : ∀ i : grid1.Coords, EltTy.bits .bf16 = 32 ∨ (Rect.block (s := S800000x96) S4000x96.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x96.size a ≤ S800000x96.size a
  hwx1_1 : ∀ i : grid1.Coords, EltTy.bits .bf16 = 32 ∨ (Rect.block (s := S800000x96) S4000x96.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x96.size a ≤ S800000x96.size a
  hwx1_2 : ∀ i : grid1.Coords, EltTy.bits .f32 = 32 ∨ (Rect.block (s := S800000x96) S4000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S288x96.size a ≤ S288x96.size a
  hwx1_3 : ∀ i : grid1.Coords, EltTy.bits .bf16 = 32 ∨ (Rect.block (s := S288x96) S288x96.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96x96.size a ≤ S96x96.size a
  hwx1_5 : ∀ i : grid1.Coords, EltTy.bits .bf16 = 32 ∨ (Rect.block (s := S96x96) S96x96.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x96.size a ≤ S1x96.size a
  hwx1_6 : ∀ i : grid1.Coords, EltTy.bits .f32 = 32 ∨ (Rect.block (s := S1x96) S1x96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x96.size a ≤ S800000x96.size a
  hwx1_7 : ∀ i : grid1.Coords, EltTy.bits .f32 = 32 ∨ (Rect.block (s := S800000x96) S4000x96.size (cc1_transform_7 i) (hinb1_7 i)).WholeWords (EltTy.packing .f32)

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S4000x96_S96x96_S4000x96_1_0_0_1_n_n : DotDims S4000x96 S96x96 S4000x96 where
  lhsContracting := [1]
  rhsContracting := [0]
  lhsNonContracting := [0]
  rhsNonContracting := [1]
  lhsBatch := []
  rhsBatch := []
  wf := dot_S4000x96_S96x96_S4000x96_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S192x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S4000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S288x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S96x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S4000x96.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x96 : Shape := ⟨2, ![800000, 96]⟩
abbrev S192x96 : Shape := ⟨2, ![192, 96]⟩
abbrev S96 : Shape := ⟨1, ![96]⟩
abbrev S96x96 : Shape := ⟨2, ![96, 96]⟩
abbrev S288x96 : Shape := ⟨2, ![288, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x192 : Shape := ⟨2, ![50000, 192]⟩
abbrev S1x96 : Shape := ⟨2, ![1, 96]⟩
abbrev S800000x288 : Shape := ⟨2, ![800000, 288]⟩

abbrev nBuf : Space → Nat
  | .hbm => 63
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x96, .f32⟩
  | .hbm, ⟨3, _⟩ => ⟨S192x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S288x96, .f32⟩
  | .hbm, ⟨8, _⟩ => ⟨S96, .f32⟩
  | .hbm, ⟨9, _⟩ => ⟨S96x96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000x96, .f32⟩
  | .hbm, ⟨15, _⟩ => ⟨S800000x1, .i32⟩
  | .hbm, ⟨16, _⟩ => ⟨S50000x96, .f32⟩
  | .hbm, ⟨17, _⟩ => ⟨S50000x192, .f32⟩
  | .hbm, ⟨18, _⟩ => ⟨S50000x96, .f32⟩
  | .hbm, ⟨19, _⟩ => ⟨S1x96, .f32⟩
  | .hbm, ⟨20, _⟩ => ⟨S50000x96, .f32⟩
  | .hbm, ⟨21, _⟩ => ⟨S50000x96, .f32⟩
  | .hbm, ⟨22, _⟩ => ⟨S_, .f32⟩
  | .hbm, ⟨23, _⟩ => ⟨S50000x96, .f32⟩
  | .hbm, ⟨24, _⟩ => ⟨S50000x96, .f32⟩
  | .hbm, ⟨25, _⟩ => ⟨S50000x96, .f32⟩
  | .hbm, ⟨26, _⟩ => ⟨S1x96, .f32⟩
  | .hbm, ⟨27, _⟩ => ⟨S50000x96, .f32⟩
  | .hbm, ⟨28, _⟩ => ⟨S50000x96, .f32⟩
  | .hbm, ⟨29, _⟩ => ⟨S1x800000, .i32⟩
  | .hbm, ⟨30, _⟩ => ⟨S800000, .i32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x96, .f32⟩
  | .hbm, ⟨40, _⟩ => ⟨S1x800000, .i32⟩
  | .hbm, ⟨41, _⟩ => ⟨S800000, .i32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x96, .f32⟩
  | .hbm, ⟨51, _⟩ => ⟨S800000x288, .f32⟩
  | .hbm, ⟨52, _⟩ => ⟨S800000x96, .f32⟩
  | .hbm, ⟨53, _⟩ => ⟨S1x96, .f32⟩
  | .hbm, ⟨54, _⟩ => ⟨S800000x96, .f32⟩
  | .hbm, ⟨55, _⟩ => ⟨S800000x96, .f32⟩
  | .hbm, ⟨56, _⟩ => ⟨S_, .f32⟩
  | .hbm, ⟨57, _⟩ => ⟨S800000x96, .f32⟩
  | .hbm, ⟨58, _⟩ => ⟨S800000x96, .f32⟩
  | .hbm, ⟨59, _⟩ => ⟨S800000x96, .f32⟩
  | .hbm, ⟨60, _⟩ => ⟨S1x96, .f32⟩
  | .hbm, ⟨61, _⟩ => ⟨S800000x96, .f32⟩
  | .hbm, ⟨62, _⟩ => ⟨S800000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_c_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call1_cst : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x96 : S_.BroadcastsInDim S50000x96 (![] : Fin 0 → Fin S50000x96.rank)
  bcast_S800000_S800000x1_0 : S800000.BroadcastsInDim S800000x1 (![0] : Fin 1 → Fin S800000x1.rank)
  concatenates_S50000x96_S50000x96_S50000x192_d1 : Shape.Concatenates [S50000x96, S50000x96] S50000x192 1
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S2x800000_S1x800000_0_0 : S2x800000.Slices ![0, 0] S1x800000
  bcast_S_S800000 : S_.BroadcastsInDim S800000 (![] : Fin 0 → Fin S800000.rank)
  concatenates_S800000x96_S800000x96_S800000x96_S800000x288_d1 : Shape.Concatenates [S800000x96, S800000x96, S800000x96] S800000x288 1
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  scatter_S50000x96_S800000x1_S800000x96_1_0_0_1_wf : ScatterDims.WF S50000x96 S800000x1 S800000x96 [1] [0] [0] 1
  dot_S50000x192_S192x96_S50000x96_1_0_0_1_n_n_wf : DotDims.WF S50000x192 S192x96 S50000x96 [1] [0] [0] [1] [] []
  dot_S50000x96_S96x96_S50000x96_1_0_0_1_n_n_wf : DotDims.WF S50000x96 S96x96 S50000x96 [1] [0] [0] [1] [] []
  gather_S50000x96_S800000x1_S800000x96_1_0_n_n_0_1_196_wf : GatherDims.WF S50000x96 S800000x1 S800000x96 [1] [0] [] [0] [] 1 ![1, 96]
  dot_S800000x288_S288x96_S800000x96_1_0_0_1_n_n_wf : DotDims.WF S800000x288 S288x96 S800000x96 [1] [0] [0] [1] [] []
  dot_S800000x96_S96x96_S800000x96_1_0_0_1_n_n_wf : DotDims.WF S800000x96 S96x96 S800000x96 [1] [0] [0] [1] [] []

variable [Facts₀]

def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x288_S288x96_S800000x96_1_0_0_1_n_n : DotDims S800000x288 S288x96 S800000x96 where
  lhsContracting := [1]
  rhsContracting := [0]
  lhsNonContracting := [0]
  rhsNonContracting := [1]
  lhsBatch := []
  rhsBatch := []
  wf := dot_S800000x288_S288x96_S800000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf

class Facts : Prop extends Facts₀ where

variable [Facts]
-- ==== Proof.KernelRun.lean ====
/-
  The idealized kernel program's run, with its final memory NAMED.

  The program is a stretch of host operations, the node kernel's launch over its 10 grid points, a second stretch of
  host operations, and the edge kernel's launch over its 200 grid points. Its memory at each of these four
  boundaries is a fold from the launch memory: a host stretch applies its operations' functions, a launch replaces
  each of its arrays by what its write-backs leave and keeps every other buffer. Every weakly fair execution
  terminates, without a fault, in a memory that holds at every buffer outside the kernels' scopes exactly the last
  boundary's contents — in particular at the two result arrays, which the later modules then read.
-/
import proofs.«161185_j15642270892348_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from the launch memory `m` terminates, nothing faulting, in a memory
    whose every buffer outside the kernels' scopes holds the last boundary's contents `W4`: the launch over the four
    segments, the last thread state read against the final state. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The node result array ends at the last boundary's contents. -/
theorem at_v26 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_v26) = W4 m ρ c (Proc.devRef .tc main_v26) :=
  h c _ (mem_uc main_v26 (by decide))

/-- The edge result array ends at the last boundary's contents. -/
theorem at_v31 (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_v31) = W4 m ρ c (Proc.devRef .tc main_v31) :=
  h c _ (mem_uc main_v31 (by decide))

/-- An argument array `b` ends at the last boundary's contents (which the generated walk-backs read as the launch
    memory). -/
theorem at_ref (b : Ref sig .tc) (hb : ¬ (Proc.devRef .tc b : DevRef τ sig).isScoped) (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc b) = W4 m ρ c (Proc.devRef .tc b) :=
  h c _ (mem_uc b hb)

end Cert.KernelIdeal.Whole

end
-- ==== Proof.Mlp.lean ====
/-
  The mathematics both programs compute, on the extended reals, one output ROW at a time.

  A message-passing step updates every node and every edge by a two-layer perceptron with a rectifier in between.
  Both perceptrons act row by row: the output row of a node depends only on that node's feature row and on the row of
  features summed over its incoming edges; the output row of an edge only on the rows of its two end nodes and on its
  own row. So the whole specification is a function of ROWS (`Fin 96 → EReal`) and of the weights.

  The first layer's weight matrix is applied to the CONCATENATION of the input rows. One side forms the concatenated
  row and contracts it against the whole matrix; the other contracts each input row against its own band of rows of
  the matrix and adds the results. The two agree because a sum over `96 + 96` (or `96 + 96 + 96`) positions is the sum
  of the sums over the bands — commutativity and associativity of addition only, which hold at the infinities too, so
  no finiteness of the inputs is used anywhere.
-/
import Idealize.ShloMosaic.PureOps.Ideal
import Mathlib.Algebra.BigOperators.Fin

noncomputable section

namespace Cert.Mlp

open Idealize.ShloMosaic

/-- The rectifier's threshold, kept as the float word both programs print for it (positive zero). -/
abbrev zeroWord : EReal := Ideal.ofBits .f32 0x00000000#32

/-- Row `j` of the first band of a 192-row matrix. -/
abbrev lo2 (j : Fin 96) : Fin 192 := ⟨j.val, by have := j.isLt; omega⟩
/-- Row `j` of the second band of a 192-row matrix. -/
abbrev hi2 (j : Fin 96) : Fin 192 := ⟨96 + j.val, by have := j.isLt; omega⟩
/-- Row `j` of the first, second and third band of a 288-row matrix. -/
abbrev lo3 (j : Fin 96) : Fin 288 := ⟨j.val, by have := j.isLt; omega⟩
abbrev mid3 (j : Fin 96) : Fin 288 := ⟨96 + j.val, by have := j.isLt; omega⟩
abbrev hi3 (j : Fin 96) : Fin 288 := ⟨192 + j.val, by have := j.isLt; omega⟩

/-- The hidden row of the node perceptron: each input row against its band of the first weight matrix, the bias,
    the rectifier. -/
def hidden2 (x a : Fin 96 → EReal) (Wa Wb : Fin 96 → Fin 96 → EReal) (b : Fin 96 → EReal) (k : Fin 96) : EReal :=
  max (((∑ j : Fin 96, x j * Wa j k) + (∑ j : Fin 96, a j * Wb j k)) + b k) zeroWord

/-- The hidden row of the edge perceptron: three input rows, three bands. -/
def hidden3 (s d e : Fin 96 → EReal) (Wa Wb Wc : Fin 96 → Fin 96 → EReal) (b : Fin 96 → EReal) (k : Fin 96) : EReal :=
  max ((((∑ j : Fin 96, s j * Wa j k) + (∑ j : Fin 96, d j * Wb j k)) + (∑ j : Fin 96, e j * Wc j k)) + b k) zeroWord

/-- The second layer: the hidden row against the second weight matrix, plus the bias. -/
def out (h : Fin 96 → EReal) (W : Fin 96 → Fin 96 → EReal) (b : Fin 96 → EReal) (q : Fin 96) : EReal :=
  (∑ k : Fin 96, h k * W k q) + b q

/-- A sum over 192 positions is the sum over the first 96 plus the sum over the last 96. -/
theorem sum_192 (f : Fin 192 → EReal) : ∑ k : Fin 192, f k = (∑ j : Fin 96, f (lo2 j)) + ∑ j : Fin 96, f (hi2 j) := by
  have h := Fin.sum_univ_add (M := EReal) (a := 96) (b := 96) f
  refine h.trans ?_
  congr 1

/-- A sum over 288 positions is the sum of the sums over its three bands of 96. -/
theorem sum_288 (f : Fin 288 → EReal) :
    ∑ k : Fin 288, f k = ((∑ j : Fin 96, f (lo3 j)) + ∑ j : Fin 96, f (mid3 j)) + ∑ j : Fin 96, f (hi3 j) := by
  have h := Fin.sum_univ_add (M := EReal) (a := 192) (b := 96) f
  refine h.trans ?_
  have h2 := Fin.sum_univ_add (M := EReal) (a := 96) (b := 96) (fun i : Fin 192 => f (Fin.castAdd 96 i))
  have e1 : (∑ i : Fin 192, f (Fin.castAdd 96 i)) = (∑ j : Fin 96, f (lo3 j)) + ∑ j : Fin 96, f (mid3 j) := by
    refine h2.trans ?_
    congr 1
  rw [e1]
  congr 1

/-- The concatenated form of the node perceptron's first layer: a row `cat` of 192 entries whose first band is `x` and
    whose second band is `a`, contracted against the whole 192-row matrix `W`, is the banded form. -/
theorem hidden2_of_concat (x a : Fin 96 → EReal) (cat : Fin 192 → EReal) (W : Fin 192 → Fin 96 → EReal) (b : Fin 96 → EReal)
    (hl : ∀ j, cat (lo2 j) = x j) (hr : ∀ j, cat (hi2 j) = a j) (k : Fin 96) :
    max ((∑ i : Fin 192, cat i * W i k) + b k) zeroWord
      = hidden2 x a (fun j k => W (lo2 j) k) (fun j k => W (hi2 j) k) b k := by
  unfold hidden2
  rw [sum_192]
  simp only [hl, hr]

/-- The concatenated form of the edge perceptron's first layer, three bands. -/
theorem hidden3_of_concat (s d e : Fin 96 → EReal) (cat : Fin 288 → EReal) (W : Fin 288 → Fin 96 → EReal) (b : Fin 96 → EReal)
    (h1 : ∀ j, cat (lo3 j) = s j) (h2 : ∀ j, cat (mid3 j) = d j) (h3 : ∀ j, cat (hi3 j) = e j) (k : Fin 96) :
    max ((∑ i : Fin 288, cat i * W i k) + b k) zeroWord
      = hidden3 s d e (fun j k => W (lo3 j) k) (fun j k => W (mid3 j) k) (fun j k => W (hi3 j) k) b k := by
  unfold hidden3
  rw [sum_288]
  simp only [h1, h2, h3]

end Cert.Mlp

end
-- ==== Proof.NodePayload.lean ====
/-
  The node kernel's arithmetic at one output entry.

  One grid point of the node kernel holds a block of 5000 node rows `x0`, the matching block `x1` of summed edge
  features, the two 96-row bands `wa`, `wb` of the first weight matrix, the first bias row, the second weight matrix
  and the second bias row. Entry `(p, q)` of what it stores is the node perceptron of row `p` of `x0` and row `p` of
  `x1`, read at column `q`: each matrix product into a zero accumulator is a plain sum over the 96 contracted
  positions, the changes of float format are the identity on the extended reals, the bias rows are broadcast down the
  rows, and the rectifier is a maximum with the zero word.
-/
import proofs.«161185_j15642270892348_2_alg».proof.Proof.Gen.KernelIdeal.Skeleton
import proofs.«161185_j15642270892348_2_alg».proof.Proof.Mlp
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.NodePayload

open Cert.KernelIdeal Cert.KernelIdeal.Gen Idealize.ShloMosaic Idealize.ShloMosaic.ValueIdx

/-! The operand positions of the [5000, 96] × [96, 96] product: the left operand is read at the output's row and the
    contracted position, the right operand at the contracted position and the output's column. -/

theorem lhs_0 (i : S5000x96.Idx) (qc : dot_S5000x96_S96x96_S5000x96_1_0_0_1_n_n.contr.Idx) : (dot_S5000x96_S96x96_S5000x96_1_0_0_1_n_n.lhsIdx i qc 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_1 (i : S5000x96.Idx) (qc : dot_S5000x96_S96x96_S5000x96_1_0_0_1_n_n.contr.Idx) : (dot_S5000x96_S96x96_S5000x96_1_0_0_1_n_n.lhsIdx i qc 1).val = (qc ⟨0, by decide⟩).val :=
  dot_S5000x96_S96x96_S5000x96_1_0_0_1_n_n.lhsIdx_val_of_single rfl i qc
theorem rhs_0 (i : S5000x96.Idx) (qc : dot_S5000x96_S96x96_S5000x96_1_0_0_1_n_n.contr.Idx) : (dot_S5000x96_S96x96_S5000x96_1_0_0_1_n_n.rhsIdx i qc 0).val = (qc ⟨0, by decide⟩).val :=
  dot_S5000x96_S96x96_S5000x96_1_0_0_1_n_n.rhsIdx_val_of_single rfl i qc
theorem rhs_1 (i : S5000x96.Idx) (qc : dot_S5000x96_S96x96_S5000x96_1_0_0_1_n_n.contr.Idx) : (dot_S5000x96_S96x96_S5000x96_1_0_0_1_n_n.rhsIdx i qc 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A [5000, 96] × [96, 96] product into the zero accumulator, at entry `(p, q)`: the sum over the contracted
    position `k` of the left operand at `(p, k)` times the right operand at `(k, q)`. -/
theorem matmul_at (l : FVec Ideal S5000x96 .bf16) (r : FVec Ideal S96x96 .bf16) (p : Fin 5000) (q : Fin 96) :
    matmul dot_S5000x96_S96x96_S5000x96_1_0_0_1_n_n none l r (constant S5000x96 .f32 0x00000000#32) (ix2 p q)
      = ∑ k : Fin 96, l (ix2 p k) * r (ix2 k q) := by
  simp only [matmul]
  rw [Ideal.matmul_constant_zero_apply, ← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx (ix2 p q) ((ValueIdx.contrEquiv1 dot_S5000x96_S96x96_S5000x96_1_0_0_1_n_n 96 rfl rfl).symm k) = ix2 p k :=
    funext fun a => Fin.ext (by
      match a with
      | ⟨0, _⟩ => exact lhs_0 _ _
      | ⟨1, _⟩ => exact (lhs_1 _ _).trans hk)
  have er : dot_S5000x96_S96x96_S5000x96_1_0_0_1_n_n.rhsIdx (ix2 p q) ((ValueIdx.contrEquiv1 dot_S5000x96_S96x96_S5000x96_1_0_0_1_n_n 96 rfl rfl).symm k) = ix2 k q :=
    funext fun a => Fin.ext (by
      match a with
      | ⟨0, _⟩ => exact (rhs_0 _ _).trans hk
      | ⟨1, _⟩ => exact rhs_1 _ _)
  rw [el, er]

/-- Entry `(p, q)` of the node kernel's stored block is the node perceptron of row `p` of its two input blocks. -/
theorem pay_at (x0 x1 : FVec Ideal S5000x96 .f32) (wa wb : FVec Ideal S96x96 .bf16) (bb1 : FVec Ideal S1x96 .f32)
    (w2 : FVec Ideal S96x96 .bf16) (bb2 : FVec Ideal S1x96 .f32) (p : Fin 5000) (q : Fin 96) :
    k0_pay1 (F := Ideal) x0 x1 wa wb bb1 w2 bb2 (ix2 p q)
      = Mlp.out (Mlp.hidden2 (fun j => x0 (ix2 p j)) (fun j => x1 (ix2 p j)) (fun j k => wa (ix2 j k)) (fun j k => wb (ix2 j k))
          (fun k => bb1 (ix2 (0 : Fin 1) k))) (fun k q => w2 (ix2 k q)) (fun q => bb2 (ix2 (0 : Fin 1) q)) q := by
  unfold k0_pay1 Mlp.out Mlp.hidden2
  simp only [shapeCast_self]
  rw [addf_apply, matmul_at, broadcastTo_1b_ab_apply]
  congr 1
  refine Finset.sum_congr rfl fun k _ => ?_
  rw [truncf_apply, maximumf_apply, addf_apply, addf_apply, matmul_at, matmul_at, broadcastTo_1b_ab_apply, broadcast_apply]
  rfl

end Cert.KernelIdeal.NodePayload

end
-- ==== Proof.NodeArray.lean ====
/-
  What the node kernel's launch leaves in its result array.

  The launch runs 10 grid points; point `t` reads rows `5000 t … 5000 t + 4999` of the node features and of the summed
  edge features, the whole of both weight matrices and bias rows, and writes back rows `5000 t … 5000 t + 4999` of the
  result. Since the perceptron acts row by row, what point `t` writes back is block `t` of ONE function of the whole
  arrays — row `r` of the result is the node perceptron of row `r` of the two feature arrays — and the ten blocks tile
  the array, so the array ends holding that function.
-/
import proofs.«161185_j15642270892348_2_alg».proof.Proof.Gen.KernelIdeal.Frame
import proofs.«161185_j15642270892348_2_alg».proof.Proof.NodePayload

set_option maxRecDepth 16384

noncomputable section

namespace Cert.KernelIdeal.NodeArray

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- Row `i 0`, column `i 1` of the node update, as a function of the six arrays the launch reads: the node features
    `X`, the summed edge features `A`, the first weight matrix (192 rows: the band for `X` above the band for `A`) and
    bias row, the second weight matrix and bias row. -/
def result (X A : FVec Ideal S50000x96 .f32) (W1 : FVec Ideal S192x96 .bf16) (B1 : FVec Ideal S1x96 .f32)
    (W2 : FVec Ideal S96x96 .bf16) (B2 : FVec Ideal S1x96 .f32) : FVec Ideal S50000x96 .f32 := fun i =>
  Mlp.out (Mlp.hidden2 (fun j => X (ix2 (i 0) j)) (fun j => A (ix2 (i 0) j))
      (fun j k => W1 (ix2 (Mlp.lo2 j) k)) (fun j k => W1 (ix2 (Mlp.hi2 j) k)) (fun k => B1 (ix2 (0 : Fin 1) k)))
    (fun k q => W2 (ix2 k q)) (fun q => B2 (ix2 (0 : Fin 1) q)) (i 1)

theorem hz : (![0, 0] : Fin 2 → Nat) = fun _ => 0 := funext fun a => by fin_cases a <;> rfl

/-- The first band of the loaded weight matrix is its rows 0 … 95. -/
theorem ld_lo (x2 : Vec Ideal S192x96 .bf16) (j k : Fin 96) : View.ld x2 r0_1 (ix2 j k) = x2 (ix2 (Mlp.lo2 j) k) := by
  show x2 (r0_1.emb (ix2 j k)) = _
  refine congrArg x2 (funext fun a => Fin.ext ?_)
  match a with
  | ⟨0, _⟩ => show 0 + 1 * j.val = j.val; omega
  | ⟨1, _⟩ => show 0 + 1 * k.val = k.val; omega

/-- The second band of the loaded weight matrix is its rows 96 … 191. -/
theorem ld_hi (x2 : Vec Ideal S192x96 .bf16) (j k : Fin 96) : View.ld x2 r0_2 (ix2 j k) = x2 (ix2 (Mlp.hi2 j) k) := by
  show x2 (r0_2.emb (ix2 j k)) = _
  refine congrArg x2 (funext fun a => Fin.ext ?_)
  match a with
  | ⟨0, _⟩ => show 96 + 1 * j.val = 96 + j.val; omega
  | ⟨1, _⟩ => show 0 + 1 * k.val = k.val; omega

/-- One entry of a stored block against the whole-array function: if the point's two feature blocks hold, at the
    entry's row, the arrays' row `i 0`, its weight and bias blocks are the whole arrays, and the entry's column is
    `i 1`, then the stored entry is the node update at `i`. -/
theorem block_at (X A : FVec Ideal S50000x96 .f32) (W1 : FVec Ideal S192x96 .bf16) (B1 : FVec Ideal S1x96 .f32)
    (W2 : FVec Ideal S96x96 .bf16) (B2 : FVec Ideal S1x96 .f32)
    (x0 x1 : FVec Ideal S5000x96 .f32) (x2 : Vec Ideal S192x96 .bf16) (x3 : FVec Ideal S1x96 .f32)
    (x4 : FVec Ideal S96x96 .bf16) (x5 : FVec Ideal S1x96 .f32)
    (p : Fin 5000) (q : Fin 96) (i : S50000x96.Idx)
    (h0 : ∀ j : Fin 96, x0 (ix2 p j) = X (ix2 (i 0) j)) (h1 : ∀ j : Fin 96, x1 (ix2 p j) = A (ix2 (i 0) j))
    (h2 : ∀ z, x2 z = W1 z) (h3 : ∀ z, x3 z = B1 z) (h4 : ∀ z, x4 z = W2 z) (h5 : ∀ z, x5 z = B2 z)
    (hq : q.val = (i 1).val) :
    k0_pay1 (F := Ideal) x0 x1 (View.ld x2 r0_1) (View.ld x2 r0_2) x3 x4 x5 (ix2 p q) = result X A W1 B1 W2 B2 i := by
  rw [NodePayload.pay_at]
  unfold result
  have e0 : (fun j => x0 (ix2 p j)) = fun j => X (ix2 (i 0) j) := funext h0
  have e1 : (fun j => x1 (ix2 p j)) = fun j => A (ix2 (i 0) j) := funext h1
  have ea : (fun j k => View.ld x2 r0_1 (ix2 j k)) = fun j k => W1 (ix2 (Mlp.lo2 j) k) :=
    funext fun j => funext fun k => (ld_lo x2 j k).trans (h2 _)
  have eb : (fun j k => View.ld x2 r0_2 (ix2 j k)) = fun j k => W1 (ix2 (Mlp.hi2 j) k) :=
    funext fun j => funext fun k => (ld_hi x2 j k).trans (h2 _)
  have e3 : (fun k => x3 (ix2 (0 : Fin 1) k)) = fun k => B1 (ix2 (0 : Fin 1) k) := funext fun k => h3 _
  have e4 : (fun k q => x4 (ix2 k q)) = fun k q => W2 (ix2 k q) := funext fun k => funext fun q => h4 _
  have e5 : (fun q => x5 (ix2 (0 : Fin 1) q)) = fun q => B2 (ix2 (0 : Fin 1) q) := funext fun q => h5 _
  have eq : q = (i 1) := Fin.ext hq
  rw [e0, e1, ea, eb, e3, e4, e5, eq]

/-- The printed index maps over the grid: the two feature windows move with the result window, whose block index is
    the point's number; the weight and bias windows stay at block 0. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- What point `t` writes back is block `t` of the node update of the arrays as the launch finds them. -/
theorem flushed_eq (c : Dev nD) (t : Fin cfg0.N) :
    (dat0 V c).flushed 6 t = ((cfg0.win 6).blk t).view.read (Elt Ideal)
      (result (V c main_arg0) (V c main_v6) (V c main_v22) (V c main_v24) (V c main_v23) (V c main_v25)) := by
  show (cfg0.win 6).cut (grid0.coords t) ((dat0 V c).after 6 t) = _
  rw [after0_6]
  unfold out0_6
  rw [View.canon_unit_zero hz]
  simp only [View.ld_unit_zero (S := S5000x96) hz, View.ld_unit_zero (S := S1x96) hz, View.ld_unit_zero (S := S96x96) hz]
  obtain ⟨f00, f01, f10, f11, f20, f21, f30, f31, f40, f41, f50, f51, f60, f61⟩ := idx_facts t
  funext y
  obtain ⟨p, q, rfl⟩ : ∃ (p : Fin 5000) (q : Fin 96), y = ix2 p q := ⟨y 0, y 1, eq_ix2 y⟩
  refine block_at (V c main_arg0) (V c main_v6) (V c main_v22) (V c main_v24) (V c main_v23) (V c main_v25)
    (iblk0 V c 0 t) (iblk0 V c 1 t) (iblk0 V c 2 t) (iblk0 V c 3 t) (iblk0 V c 4 t) (iblk0 V c 5 t) p q
    (((cfg0.win 6).blk t).view.emb (ix2 p q)) ?_ ?_ ?_ ?_ ?_ ?_ ?_
  · intro j
    show V c main_arg0 (((cfg0.win 0).blk t).view.emb (ix2 p j)) = V c main_arg0 _
    refine congrArg (V c main_arg0) (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 96 + 1 * j.val = j.val; omega
  · intro j
    show V c main_v6 (((cfg0.win 1).blk t).view.emb (ix2 p j)) = V c main_v6 _
    refine congrArg (V c main_v6) (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 96 + 1 * j.val = j.val; omega
  · intro z
    show V c main_v22 (((cfg0.win 2).blk t).view.emb z) = V c main_v22 z
    refine congrArg (V c main_v22) (funext fun a => Fin.ext ?_)
    match a with
    | ⟨0, _⟩ => show win0_2.index t (0 : Fin 2) * 192 + 1 * (z 0).val = (z 0).val; omega
    | ⟨1, _⟩ => show win0_2.index t (1 : Fin 2) * 96 + 1 * (z 1).val = (z 1).val; omega
  · intro z
    show V c main_v24 (((cfg0.win 3).blk t).view.emb z) = V c main_v24 z
    refine congrArg (V c main_v24) (funext fun a => Fin.ext ?_)
    match a with
    | ⟨0, _⟩ => show win0_3.index t (0 : Fin 2) * 1 + 1 * (z 0).val = (z 0).val; omega
    | ⟨1, _⟩ => show win0_3.index t (1 : Fin 2) * 96 + 1 * (z 1).val = (z 1).val; omega
  · intro z
    show V c main_v23 (((cfg0.win 4).blk t).view.emb z) = V c main_v23 z
    refine congrArg (V c main_v23) (funext fun a => Fin.ext ?_)
    match a with
    | ⟨0, _⟩ => show win0_4.index t (0 : Fin 2) * 96 + 1 * (z 0).val = (z 0).val; omega
    | ⟨1, _⟩ => show win0_4.index t (1 : Fin 2) * 96 + 1 * (z 1).val = (z 1).val; omega
  · intro z
    show V c main_v25 (((cfg0.win 5).blk t).view.emb z) = V c main_v25 z
    refine congrArg (V c main_v25) (funext fun a => Fin.ext ?_)
    match a with
    | ⟨0, _⟩ => show win0_5.index t (0 : Fin 2) * 1 + 1 * (z 0).val = (z 0).val; omega
    | ⟨1, _⟩ => show win0_5.index t (1 : Fin 2) * 96 + 1 * (z 1).val = (z 1).val; omega
  · show q.val = win0_6.index t (1 : Fin 2) * 96 + 1 * q.val
    omega

/-- An index of the result array is in point `t`'s block iff each coordinate is in the block's range on its axis. -/
theorem mem_blk (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v26).slice (win0_6.rect t)).set ↔ _
  rw [View.set_slice_whole, Rect.mem_set_unit]
  exact Iff.rfl

/-- Every row of the result array is in some point's block: row `r` in that of point `r / 5000`. -/
theorem cover (i : S50000x96.Idx) : ∃ t : Fin cfg0.N, (cfg0.win 6).flush t = true ∧ i ∈ ((cfg0.win 6).blk t).view.set := by
  have hi0 : (i 0).val < 50000 := (i 0).isLt
  have hi1 : (i 1).val < 96 := (i 1).isLt
  let t : Fin cfg0.N := ⟨(i 0).val / 5000, by rw [show cfg0.N = 10 from N_0]; omega⟩
  obtain ⟨f00, f01, f10, f11, f20, f21, f30, f31, f40, f41, f50, f51, f60, f61⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- The result array after the launch is the node update of the arrays as the launch finds them. -/
theorem final (c : Dev nD) : (dat0 V c).arrAt 6 cfg0.N
    = result (V c main_arg0) (V c main_v6) (V c main_v22) (V c main_v24) (V c main_v23) (V c main_v25) :=
  (dat0 V c).arrAt_eq_of_cover 6 _ (fun t _ => flushed_eq V c t) cover

end Cert.KernelIdeal.NodeArray

end
-- ==== Proof.EdgePayload.lean ====
/-
  The edge kernel's arithmetic at one output entry.

  One grid point of the edge kernel holds a block of 4000 edges: the feature rows `s`, `d` of each edge's two end
  nodes, the edge's own feature row `e`, the three 96-row bands `wa`, `wb`, `wc` of the first weight matrix, the first
  bias row, the second weight matrix and the second bias row. Entry `(p, q)` of what it stores is the edge perceptron of
  row `p` of the three input blocks, read at column `q`.
-/
import proofs.«161185_j15642270892348_2_alg».proof.Proof.Gen.KernelIdeal.Skeleton
import proofs.«161185_j15642270892348_2_alg».proof.Proof.Mlp
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.EdgePayload

open Cert.KernelIdeal Cert.KernelIdeal.Gen Idealize.ShloMosaic Idealize.ShloMosaic.ValueIdx

/-! The operand positions of the [4000, 96] × [96, 96] product: the left operand is read at the output's row and the
    contracted position, the right operand at the contracted position and the output's column. -/

theorem lhs_0 (i : S4000x96.Idx) (qc : dot_S4000x96_S96x96_S4000x96_1_0_0_1_n_n.contr.Idx) : (dot_S4000x96_S96x96_S4000x96_1_0_0_1_n_n.lhsIdx i qc 0).val = (i 0).val := by
  unfold DotDims.lhsIdx
  rw [dif_neg (show ¬(0 : Fin S4000x96.rank) ∈ dot_S4000x96_S96x96_S4000x96_1_0_0_1_n_n.lhsBatch by decide), dif_pos (show (0 : Fin S4000x96.rank) ∈ dot_S4000x96_S96x96_S4000x96_1_0_0_1_n_n.lhsNonContracting by decide)]
  rfl
theorem lhs_1 (i : S4000x96.Idx) (qc : dot_S4000x96_S96x96_S4000x96_1_0_0_1_n_n.contr.Idx) : (dot_S4000x96_S96x96_S4000x96_1_0_0_1_n_n.lhsIdx i qc 1).val = (qc ⟨0, by decide⟩).val :=
  dot_S4000x96_S96x96_S4000x96_1_0_0_1_n_n.lhsIdx_val_of_single rfl i qc
theorem rhs_0 (i : S4000x96.Idx) (qc : dot_S4000x96_S96x96_S4000x96_1_0_0_1_n_n.contr.Idx) : (dot_S4000x96_S96x96_S4000x96_1_0_0_1_n_n.rhsIdx i qc 0).val = (qc ⟨0, by decide⟩).val :=
  dot_S4000x96_S96x96_S4000x96_1_0_0_1_n_n.rhsIdx_val_of_single rfl i qc
theorem rhs_1 (i : S4000x96.Idx) (qc : dot_S4000x96_S96x96_S4000x96_1_0_0_1_n_n.contr.Idx) : (dot_S4000x96_S96x96_S4000x96_1_0_0_1_n_n.rhsIdx i qc 1).val = (i 1).val := by
  unfold DotDims.rhsIdx
  rw [dif_neg (show ¬(1 : Fin S96x96.rank) ∈ dot_S4000x96_S96x96_S4000x96_1_0_0_1_n_n.rhsBatch by decide), dif_pos (show (1 : Fin S96x96.rank) ∈ dot_S4000x96_S96x96_S4000x96_1_0_0_1_n_n.rhsNonContracting by decide)]
  rfl

/-- A [4000, 96] × [96, 96] product into the zero accumulator, at entry `(p, q)`: the sum over the contracted
    position `k` of the left operand at `(p, k)` times the right operand at `(k, q)`. -/
theorem matmul_at (l : FVec Ideal S4000x96 .bf16) (r : FVec Ideal S96x96 .bf16) (p : Fin 4000) (q : Fin 96) :
    matmul dot_S4000x96_S96x96_S4000x96_1_0_0_1_n_n none l r (constant S4000x96 .f32 0x00000000#32) (ix2 p q)
      = ∑ k : Fin 96, l (ix2 p k) * r (ix2 k q) := by
  simp only [matmul]
  rw [Ideal.matmul_constant_zero_apply, ← Equiv.sum_comp (ValueIdx.contrEquiv1 dot_S4000x96_S96x96_S4000x96_1_0_0_1_n_n 96 rfl rfl).symm]
  refine Finset.sum_congr rfl fun k _ => ?_
  have hk := ValueIdx.contrEquiv1_symm_val dot_S4000x96_S96x96_S4000x96_1_0_0_1_n_n 96 rfl rfl k
  have el : dot_S4000x96_S96x96_S4000x96_1_0_0_1_n_n.lhsIdx (ix2 p q) ((ValueIdx.contrEquiv1 dot_S4000x96_S96x96_S4000x96_1_0_0_1_n_n 96 rfl rfl).symm k) = ix2 p k :=
    funext fun a => Fin.ext (by
      match a with
      | ⟨0, _⟩ => exact lhs_0 _ _
      | ⟨1, _⟩ => exact (lhs_1 _ _).trans hk)
  have er : dot_S4000x96_S96x96_S4000x96_1_0_0_1_n_n.rhsIdx (ix2 p q) ((ValueIdx.contrEquiv1 dot_S4000x96_S96x96_S4000x96_1_0_0_1_n_n 96 rfl rfl).symm k) = ix2 k q :=
    funext fun a => Fin.ext (by
      match a with
      | ⟨0, _⟩ => exact (rhs_0 _ _).trans hk
      | ⟨1, _⟩ => exact rhs_1 _ _)
  rw [el, er]

/-- Entry `(p, q)` of the edge kernel's stored block is the edge perceptron of row `p` of its three input blocks. -/
theorem pay_at (s d : FVec Ideal S4000x96 .bf16) (e : FVec Ideal S4000x96 .f32) (wa wb wc : FVec Ideal S96x96 .bf16)
    (bb1 : FVec Ideal S1x96 .f32) (w2 : FVec Ideal S96x96 .bf16) (bb2 : FVec Ideal S1x96 .f32) (p : Fin 4000) (q : Fin 96) :
    k1_pay1 (F := Ideal) s d e wa wb wc bb1 w2 bb2 (ix2 p q)
      = Mlp.out (Mlp.hidden3 (fun j => s (ix2 p j)) (fun j => d (ix2 p j)) (fun j => e (ix2 p j))
          (fun j k => wa (ix2 j k)) (fun j k => wb (ix2 j k)) (fun j k => wc (ix2 j k))
          (fun k => bb1 (ix2 (0 : Fin 1) k))) (fun k q => w2 (ix2 k q)) (fun q => bb2 (ix2 (0 : Fin 1) q)) q := by
  unfold k1_pay1 Mlp.out Mlp.hidden3
  simp only [shapeCast_self]
  rw [addf_apply, matmul_at, broadcastTo_1b_ab_apply]
  congr 1
  refine Finset.sum_congr rfl fun k _ => ?_
  rw [truncf_apply, maximumf_apply, addf_apply, addf_apply, addf_apply, matmul_at, matmul_at, matmul_at, broadcastTo_1b_ab_apply, broadcast_apply]
  rfl

end Cert.KernelIdeal.EdgePayload

end
-- ==== Proof.EdgeArray.lean ====
/-
  What the edge kernel's launch leaves in its result array.

  The launch runs 200 grid points; point `t` reads rows `4000 t … 4000 t + 3999` of the two gathered end-node feature
  arrays and of the edge features, the whole of both weight matrices and bias rows, and writes back the same rows of
  the result. The perceptron acts row by row, so what point `t` writes back is block `t` of one function of the whole
  arrays — row `r` of the result is the edge perceptron of row `r` of the three feature arrays — and the 200 blocks tile
  the array, so the array ends holding that function.
-/
import proofs.«161185_j15642270892348_2_alg».proof.Proof.Gen.KernelIdeal.Frame
import proofs.«161185_j15642270892348_2_alg».proof.Proof.EdgePayload

set_option maxRecDepth 16384

noncomputable section

namespace Cert.KernelIdeal.EdgeArray

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- Row `i 0`, column `i 1` of the edge update, as a function of the seven arrays the launch reads: the feature rows
    `S`, `D` of each edge's two end nodes, the edge features `E`, the first weight matrix (288 rows: the bands for `S`,
    `D`, `E` one above the other) and bias row, the second weight matrix and bias row. -/
def result (S D : FVec Ideal S800000x96 .bf16) (E : FVec Ideal S800000x96 .f32) (W1 : FVec Ideal S288x96 .bf16)
    (B1 : FVec Ideal S1x96 .f32) (W2 : FVec Ideal S96x96 .bf16) (B2 : FVec Ideal S1x96 .f32) : FVec Ideal S800000x96 .f32 := fun i =>
  Mlp.out (Mlp.hidden3 (fun j => S (ix2 (i 0) j)) (fun j => D (ix2 (i 0) j)) (fun j => E (ix2 (i 0) j))
      (fun j k => W1 (ix2 (Mlp.lo3 j) k)) (fun j k => W1 (ix2 (Mlp.mid3 j) k)) (fun j k => W1 (ix2 (Mlp.hi3 j) k))
      (fun k => B1 (ix2 (0 : Fin 1) k)))
    (fun k q => W2 (ix2 k q)) (fun q => B2 (ix2 (0 : Fin 1) q)) (i 1)

theorem hz : (![0, 0] : Fin 2 → Nat) = fun _ => 0 := funext fun a => by fin_cases a <;> rfl

/-- The first band of the loaded weight matrix is its rows 0 … 95. -/
theorem ld_lo (x3 : Vec Ideal S288x96 .bf16) (j k : Fin 96) : View.ld x3 r1_1 (ix2 j k) = x3 (ix2 (Mlp.lo3 j) k) := by
  show x3 (r1_1.emb (ix2 j k)) = _
  refine congrArg x3 (funext fun a => Fin.ext ?_)
  match a with
  | ⟨0, _⟩ => show 0 + 1 * j.val = j.val; omega
  | ⟨1, _⟩ => show 0 + 1 * k.val = k.val; omega

/-- The second band is its rows 96 … 191. -/
theorem ld_mid (x3 : Vec Ideal S288x96 .bf16) (j k : Fin 96) : View.ld x3 r1_2 (ix2 j k) = x3 (ix2 (Mlp.mid3 j) k) := by
  show x3 (r1_2.emb (ix2 j k)) = _
  refine congrArg x3 (funext fun a => Fin.ext ?_)
  match a with
  | ⟨0, _⟩ => show 96 + 1 * j.val = 96 + j.val; omega
  | ⟨1, _⟩ => show 0 + 1 * k.val = k.val; omega

/-- The third band is its rows 192 … 287. -/
theorem ld_hi (x3 : Vec Ideal S288x96 .bf16) (j k : Fin 96) : View.ld x3 r1_3 (ix2 j k) = x3 (ix2 (Mlp.hi3 j) k) := by
  show x3 (r1_3.emb (ix2 j k)) = _
  refine congrArg x3 (funext fun a => Fin.ext ?_)
  match a with
  | ⟨0, _⟩ => show 192 + 1 * j.val = 192 + j.val; omega
  | ⟨1, _⟩ => show 0 + 1 * k.val = k.val; omega

/-- One entry of a stored block against the whole-array function: if the point's three feature blocks hold, at the
    entry's row, the arrays' row `i 0`, its weight and bias blocks are the whole arrays, and the entry's column is
    `i 1`, then the stored entry is the edge update at `i`. -/
theorem block_at (S D : FVec Ideal S800000x96 .bf16) (E : FVec Ideal S800000x96 .f32) (W1 : FVec Ideal S288x96 .bf16)
    (B1 : FVec Ideal S1x96 .f32) (W2 : FVec Ideal S96x96 .bf16) (B2 : FVec Ideal S1x96 .f32)
    (x0 x1 : FVec Ideal S4000x96 .bf16) (x2 : FVec Ideal S4000x96 .f32) (x3 : Vec Ideal S288x96 .bf16) (x4 : FVec Ideal S1x96 .f32)
    (x5 : FVec Ideal S96x96 .bf16) (x6 : FVec Ideal S1x96 .f32)
    (p : Fin 4000) (q : Fin 96) (i : S800000x96.Idx)
    (h0 : ∀ j : Fin 96, x0 (ix2 p j) = S (ix2 (i 0) j)) (h1 : ∀ j : Fin 96, x1 (ix2 p j) = D (ix2 (i 0) j))
    (h2 : ∀ j : Fin 96, x2 (ix2 p j) = E (ix2 (i 0) j))
    (h3 : ∀ z, x3 z = W1 z) (h4 : ∀ z, x4 z = B1 z) (h5 : ∀ z, x5 z = W2 z) (h6 : ∀ z, x6 z = B2 z)
    (hq : q.val = (i 1).val) :
    k1_pay1 (F := Ideal) x0 x1 x2 (View.ld x3 r1_1) (View.ld x3 r1_2) (View.ld x3 r1_3) x4 x5 x6 (ix2 p q) = result S D E W1 B1 W2 B2 i := by
  rw [EdgePayload.pay_at]
  unfold result
  have e0 : (fun j => x0 (ix2 p j)) = fun j => S (ix2 (i 0) j) := funext h0
  have e1 : (fun j => x1 (ix2 p j)) = fun j => D (ix2 (i 0) j) := funext h1
  have e2 : (fun j => x2 (ix2 p j)) = fun j => E (ix2 (i 0) j) := funext h2
  have ea : (fun j k => View.ld x3 r1_1 (ix2 j k)) = fun j k => W1 (ix2 (Mlp.lo3 j) k) :=
    funext fun j => funext fun k => (ld_lo x3 j k).trans (h3 _)
  have eb : (fun j k => View.ld x3 r1_2 (ix2 j k)) = fun j k => W1 (ix2 (Mlp.mid3 j) k) :=
    funext fun j => funext fun k => (ld_mid x3 j k).trans (h3 _)
  have ec : (fun j k => View.ld x3 r1_3 (ix2 j k)) = fun j k => W1 (ix2 (Mlp.hi3 j) k) :=
    funext fun j => funext fun k => (ld_hi x3 j k).trans (h3 _)
  have e4 : (fun k => x4 (ix2 (0 : Fin 1) k)) = fun k => B1 (ix2 (0 : Fin 1) k) := funext fun k => h4 _
  have e5 : (fun k q => x5 (ix2 k q)) = fun k q => W2 (ix2 k q) := funext fun k => funext fun q => h5 _
  have e6 : (fun q => x6 (ix2 (0 : Fin 1) q)) = fun q => B2 (ix2 (0 : Fin 1) q) := funext fun q => h6 _
  have eq : q = (i 1) := Fin.ext hq
  rw [e0, e1, e2, ea, eb, ec, e4, e5, e6, eq]

/-- The printed index maps over the grid: the three feature windows move with the result window, whose block index is
    the point's number; the weight and bias windows stay at block 0. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- What point `t` writes back is block `t` of the edge update of the arrays as the launch finds them. -/
theorem flushed_eq (c : Dev nD) (t : Fin cfg1.N) :
    (dat1 V c).flushed 7 t = ((cfg1.win 7).blk t).view.read (Elt Ideal)
      (result (V c main_v14) (V c main_v21) (V c main_arg2) (V c main_v27) (V c main_v29) (V c main_v28) (V c main_v30)) := by
  show (cfg1.win 7).cut (grid1.coords t) ((dat1 V c).after 7 t) = _
  rw [after1_7]
  unfold out1_7
  rw [View.canon_unit_zero hz]
  simp only [View.ld_unit_zero (S := S4000x96) hz, View.ld_unit_zero (S := S1x96) hz, View.ld_unit_zero (S := S96x96) hz]
  obtain ⟨f00, f01, f10, f11, f20, f21, f30, f31, f40, f41, f50, f51, f60, f61, f70, f71⟩ := idx_facts t
  funext y
  obtain ⟨p, q, rfl⟩ : ∃ (p : Fin 4000) (q : Fin 96), y = ix2 p q := ⟨y 0, y 1, eq_ix2 y⟩
  refine block_at (V c main_v14) (V c main_v21) (V c main_arg2) (V c main_v27) (V c main_v29) (V c main_v28) (V c main_v30)
    (iblk1 V c 0 t) (iblk1 V c 1 t) (iblk1 V c 2 t) (iblk1 V c 3 t) (iblk1 V c 4 t) (iblk1 V c 5 t) (iblk1 V c 6 t) p q
    (((cfg1.win 7).blk t).view.emb (ix2 p q)) ?_ ?_ ?_ ?_ ?_ ?_ ?_ ?_
  · intro j
    show V c main_v14 (((cfg1.win 0).blk t).view.emb (ix2 p j)) = V c main_v14 _
    refine congrArg (V c main_v14) (funext fun a => Fin.ext ?_)
    match a with
    | ⟨0, _⟩ => show win1_0.index t (0 : Fin 2) * 4000 + 1 * p.val = win1_7.index t (0 : Fin 2) * 4000 + 1 * p.val; omega
    | ⟨1, _⟩ => show win1_0.index t (1 : Fin 2) * 96 + 1 * j.val = j.val; omega
  · intro j
    show V c main_v21 (((cfg1.win 1).blk t).view.emb (ix2 p j)) = V c main_v21 _
    refine congrArg (V c main_v21) (funext fun a => Fin.ext ?_)
    match a with
    | ⟨0, _⟩ => show win1_1.index t (0 : Fin 2) * 4000 + 1 * p.val = win1_7.index t (0 : Fin 2) * 4000 + 1 * p.val; omega
    | ⟨1, _⟩ => show win1_1.index t (1 : Fin 2) * 96 + 1 * j.val = j.val; omega
  · intro j
    show V c main_arg2 (((cfg1.win 2).blk t).view.emb (ix2 p j)) = V c main_arg2 _
    refine congrArg (V c main_arg2) (funext fun a => Fin.ext ?_)
    match a with
    | ⟨0, _⟩ => show win1_2.index t (0 : Fin 2) * 4000 + 1 * p.val = win1_7.index t (0 : Fin 2) * 4000 + 1 * p.val; omega
    | ⟨1, _⟩ => show win1_2.index t (1 : Fin 2) * 96 + 1 * j.val = j.val; omega
  · intro z
    show V c main_v27 (((cfg1.win 3).blk t).view.emb z) = V c main_v27 z
    refine congrArg (V c main_v27) (funext fun a => Fin.ext ?_)
    match a with
    | ⟨0, _⟩ => show win1_3.index t (0 : Fin 2) * 288 + 1 * (z 0).val = (z 0).val; omega
    | ⟨1, _⟩ => show win1_3.index t (1 : Fin 2) * 96 + 1 * (z 1).val = (z 1).val; omega
  · intro z
    show V c main_v29 (((cfg1.win 4).blk t).view.emb z) = V c main_v29 z
    refine congrArg (V c main_v29) (funext fun a => Fin.ext ?_)
    match a with
    | ⟨0, _⟩ => show win1_4.index t (0 : Fin 2) * 1 + 1 * (z 0).val = (z 0).val; omega
    | ⟨1, _⟩ => show win1_4.index t (1 : Fin 2) * 96 + 1 * (z 1).val = (z 1).val; omega
  · intro z
    show V c main_v28 (((cfg1.win 5).blk t).view.emb z) = V c main_v28 z
    refine congrArg (V c main_v28) (funext fun a => Fin.ext ?_)
    match a with
    | ⟨0, _⟩ => show win1_5.index t (0 : Fin 2) * 96 + 1 * (z 0).val = (z 0).val; omega
    | ⟨1, _⟩ => show win1_5.index t (1 : Fin 2) * 96 + 1 * (z 1).val = (z 1).val; omega
  · intro z
    show V c main_v30 (((cfg1.win 6).blk t).view.emb z) = V c main_v30 z
    refine congrArg (V c main_v30) (funext fun a => Fin.ext ?_)
    match a with
    | ⟨0, _⟩ => show win1_6.index t (0 : Fin 2) * 1 + 1 * (z 0).val = (z 0).val; omega
    | ⟨1, _⟩ => show win1_6.index t (1 : Fin 2) * 96 + 1 * (z 1).val = (z 1).val; omega
  · show q.val = win1_7.index t (1 : Fin 2) * 96 + 1 * q.val
    omega

/-- An index of the result array is in point `t`'s block iff each coordinate is in the block's range on its axis. -/
theorem mem_blk (t : Fin cfg1.N) (i : S800000x96.Idx) :
    i ∈ ((cfg1.win 7).blk t).view.set ↔ ∀ a : Fin 2, win1_7.index t a * S4000x96.size a ≤ (i a).val ∧ (i a).val < win1_7.index t a * S4000x96.size a + S4000x96.size a := by
  show i ∈ ((View.whole main_v31).slice (win1_7.rect t)).set ↔ _
  rw [View.set_slice_whole, Rect.mem_set_unit]
  exact Iff.rfl

/-- Every row of the result array is in some point's block: row `r` in that of point `r / 4000`. -/
theorem cover (i : S800000x96.Idx) : ∃ t : Fin cfg1.N, (cfg1.win 7).flush t = true ∧ i ∈ ((cfg1.win 7).blk t).view.set := by
  have hi0 : (i 0).val < 800000 := (i 0).isLt
  have hi1 : (i 1).val < 96 := (i 1).isLt
  let t : Fin cfg1.N := ⟨(i 0).val / 4000, by rw [show cfg1.N = 200 from N_1]; omega⟩
  obtain ⟨f00, f01, f10, f11, f20, f21, f30, f31, f40, f41, f50, f51, f60, f61, f70, f71⟩ := idx_facts t
  have ht : t.val = (i 0).val / 4000 := rfl
  refine ⟨t, flush1_7 t, ?_⟩
  rw [mem_blk]
  intro a
  match a with
  | ⟨0, _⟩ => show win1_7.index t (0 : Fin 2) * 4000 ≤ (i 0).val ∧ (i 0).val < win1_7.index t (0 : Fin 2) * 4000 + 4000; omega
  | ⟨1, _⟩ => show win1_7.index t (1 : Fin 2) * 96 ≤ (i 1).val ∧ (i 1).val < win1_7.index t (1 : Fin 2) * 96 + 96; omega

/-- The result array after the launch is the edge update of the arrays as the launch finds them. -/
theorem final (c : Dev nD) : (dat1 V c).arrAt 7 cfg1.N
    = result (V c main_v14) (V c main_v21) (V c main_arg2) (V c main_v27) (V c main_v29) (V c main_v28) (V c main_v30) :=
  (dat1 V c).arrAt_eq_of_cover 7 _ (fun t _ => flushed_eq V c t) cover

end Cert.KernelIdeal.EdgeArray

end
-- ==== Proof.Spec.lean ====
/-
  The two result arrays as functions of the argument arrays, index by index.

  `node X A W1 b1 W2 b2` is the node update: row `r` is the node perceptron of row `r` of the node features `X` and
  row `r` of the per-node sums `A` of incoming edge features. `edge S D E W1 b1 W2 b2` is the edge update: row `r` is
  the edge perceptron of row `r` of the source-node features `S`, the destination-node features `D` and the edge
  features `E`. The first weight matrix of each is cut into 96-row bands, one band per input row. How `A`, `S` and `D`
  come out of the arguments (a scatter-add and two gathers along the edge list) is the same text in both programs and
  is left unopened here.
-/
import proofs.«161185_j15642270892348_2_alg».proof.Proof.Mlp
import Idealize.ShloMosaic.Lib.ValueIdx

noncomputable section

namespace Cert.Spec

open Idealize.ShloMosaic Idealize.ShloMosaic.ValueIdx

/-- The node update at index `i = (row, column)`. -/
def node (X A : (⟨2, ![50000, 96]⟩ : Shape).Idx → EReal) (W1 : (⟨2, ![192, 96]⟩ : Shape).Idx → EReal)
    (b1 : (⟨1, ![96]⟩ : Shape).Idx → EReal) (W2 : (⟨2, ![96, 96]⟩ : Shape).Idx → EReal) (b2 : (⟨1, ![96]⟩ : Shape).Idx → EReal) :
    (⟨2, ![50000, 96]⟩ : Shape).Idx → EReal := fun i =>
  Mlp.out (Mlp.hidden2 (fun j => X (ix2 (i 0) j)) (fun j => A (ix2 (i 0) j))
      (fun j k => W1 (ix2 (Mlp.lo2 j) k)) (fun j k => W1 (ix2 (Mlp.hi2 j) k)) (fun k => b1 (ix1 k)))
    (fun k q => W2 (ix2 k q)) (fun q => b2 (ix1 q)) (i 1)

/-- The edge update at index `i = (row, column)`. -/
def edge (S D E : (⟨2, ![800000, 96]⟩ : Shape).Idx → EReal) (W1 : (⟨2, ![288, 96]⟩ : Shape).Idx → EReal)
    (b1 : (⟨1, ![96]⟩ : Shape).Idx → EReal) (W2 : (⟨2, ![96, 96]⟩ : Shape).Idx → EReal) (b2 : (⟨1, ![96]⟩ : Shape).Idx → EReal) :
    (⟨2, ![800000, 96]⟩ : Shape).Idx → EReal := fun i =>
  Mlp.out (Mlp.hidden3 (fun j => S (ix2 (i 0) j)) (fun j => D (ix2 (i 0) j)) (fun j => E (ix2 (i 0) j))
      (fun j k => W1 (ix2 (Mlp.lo3 j) k)) (fun j k => W1 (ix2 (Mlp.mid3 j) k)) (fun j k => W1 (ix2 (Mlp.hi3 j) k))
      (fun k => b1 (ix1 k)))
    (fun k q => W2 (ix2 k q)) (fun q => b2 (ix1 q)) (i 1)

end Cert.Spec

end
-- ==== Proof.KernelValue.lean ====
/-
  The idealized kernel program's two result arrays as functions of its arguments.

  The last boundary's contents at the edge result array are what the edge launch leaves: the edge update of the arrays
  the launch finds. Those are, read back through the fold, two gathers of the node features along the edge list (made
  by the first host stretch, untouched by the node launch and the second stretch), the edge features (an argument), and
  the weights and biases as the second host stretch re-lays them (a change of float format, which is the identity on
  the extended reals, and a reshape of a bias vector to one row). The node result array is untouched by the second host
  stretch and by the edge launch, so it still holds what the node launch left: the node update of the node features,
  the per-node sums the first host stretch scatters, and the re-laid weights and biases.
-/
import proofs.«161185_j15642270892348_2_alg».proof.Proof.KernelRun
import proofs.«161185_j15642270892348_2_alg».proof.Proof.NodeArray
import proofs.«161185_j15642270892348_2_alg».proof.Proof.EdgeArray
import proofs.«161185_j15642270892348_2_alg».proof.Proof.Spec
import Idealize.ShloMosaic.Lib.StableHlo.Run

set_option maxRecDepth 16384

noncomputable section

namespace Cert.KernelIdeal.Value

open Cert.KernelIdeal Cert.KernelIdeal.Gen Idealize.ShloMosaic Idealize.ShloMosaic.TcCoe Idealize.ShloMosaic.ValueIdx
open Idealize.ShloMosaic.StableHlo
open Idealize.SL.Sem

section Generic

variable {F : FTy → Type} [FloatOps F]

/-- Row `r` (0: sources, 1: destinations) of the edge list as a vector of 800000 node numbers. -/
def srcIdx (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
def dstIdx (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The per-node sums of incoming edge features: the edge features scattered-and-added into zeros at the destinations. -/
def agg (e : (⟨S2x800000, .i32⟩ : BufTy).Contents (Elt F)) (ea : (⟨S800000x96, .f32⟩ : BufTy).Contents (Elt F)) :
    (⟨S50000x96, .f32⟩ : BufTy).Contents (Elt F) :=
  Host.scatterAdd scatter_S50000x96_S800000x1_S800000x96_1_0_0_1
    (broadcastInDim S50000x96 ![] bcast_S_S50000x96 (constant S_ .f32 0x00000000#32))
    (broadcastInDim S800000x1 ![0] bcast_S800000_S800000x1_0 (dstIdx e)) ea

/-- The rows of the node features a vector of node numbers names (a negative number counted from the end). -/
def rowsAt (x : (⟨S50000x96, .f32⟩ : BufTy).Contents (Elt F)) (ix : (⟨S800000, .i32⟩ : BufTy).Contents (Elt F)) :
    (⟨S800000x96, .bf16⟩ : BufTy).Contents (Elt F) :=
  Host.gather gather_S50000x96_S800000x1_S800000x96_1_0_n_n_0_1_196 (truncf .bf16 x bitsLt_bf16_f32)
    (broadcastInDim S800000x1 ![0] bcast_S800000_S800000x1_0
      (select (cmpi .slt ix (broadcastInDim S800000 ![] bcast_S_S800000 (constantI S_ 32 0#32)))
        (addi ix (broadcastInDim S800000 ![] bcast_S_S800000 (constantI S_ 32 50000#32))) ix))

variable (m : (ℓ : Loc nD τ sig) → Buf (Elt F) ℓ) (ρ : Dev nD → PrngReg)

/-! ## The node launch's arrays as the first host stretch leaves them -/

theorem V1_arg0 (c : Dev nD) : V1 m ρ c main_arg0 = m ((c : Thread nD τ).loc main_arg0) := by
  show StableHlo.after hostOps0 (W0 m ρ c) (Proc.devRef .tc main_arg0) = _
  after_results <;> rfl
theorem V1_v6 (c : Dev nD) : V1 m ρ c main_v6 = agg (m ((c : Thread nD τ).loc main_arg1)) (m ((c : Thread nD τ).loc main_arg2)) := by
  show StableHlo.after hostOps0 (W0 m ρ c) (Proc.devRef .tc main_v6) = _
  after_results <;> rfl
theorem V1_v22 (c : Dev nD) : V1 m ρ c main_v22 = truncf .bf16 (m ((c : Thread nD τ).loc main_arg3)) bitsLt_bf16_f32 := by
  show StableHlo.after hostOps0 (W0 m ρ c) (Proc.devRef .tc main_v22) = _
  after_results <;> rfl
theorem V1_v24 (c : Dev nD) : V1 m ρ c main_v24 = shapeCast S1x96 (m ((c : Thread nD τ).loc main_arg4)) shapeCasts_S96_S1x96 := by
  show StableHlo.after hostOps0 (W0 m ρ c) (Proc.devRef .tc main_v24) = _
  after_results <;> rfl
theorem V1_v23 (c : Dev nD) : V1 m ρ c main_v23 = truncf .bf16 (m ((c : Thread nD τ).loc main_arg5)) bitsLt_bf16_f32 := by
  show StableHlo.after hostOps0 (W0 m ρ c) (Proc.devRef .tc main_v23) = _
  after_results <;> rfl
theorem V1_v25 (c : Dev nD) : V1 m ρ c main_v25 = shapeCast S1x96 (m ((c : Thread nD τ).loc main_arg6)) shapeCasts_S96_S1x96 := by
  show StableHlo.after hostOps0 (W0 m ρ c) (Proc.devRef .tc main_v25) = _
  after_results <;> rfl

/-! ## What the node launch leaves alone: buffers that are not among its arrays keep the first stretch's contents -/

theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results <;> rfl
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl
theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl

theorem W2_v14 (c : Dev nD) : W2 m ρ c (Proc.devRef .tc main_v14) = rowsAt (m ((c : Thread nD τ).loc main_arg0)) (srcIdx (m ((c : Thread nD τ).loc main_arg1))) := by
  rw [W2_of_ne m ρ c main_v14 (by decide)]
  show StableHlo.after hostOps0 (W0 m ρ c) (Proc.devRef .tc main_v14) = _
  after_results_simp <;> rfl
theorem W2_v21 (c : Dev nD) : W2 m ρ c (Proc.devRef .tc main_v21) = rowsAt (m ((c : Thread nD τ).loc main_arg0)) (dstIdx (m ((c : Thread nD τ).loc main_arg1))) := by
  rw [W2_of_ne m ρ c main_v21 (by decide)]
  show StableHlo.after hostOps0 (W0 m ρ c) (Proc.devRef .tc main_v21) = _
  after_results_simp <;> rfl

/-! ## The edge launch's arrays as the second host stretch leaves them -/

theorem V3_v14 (c : Dev nD) : V3 m ρ c main_v14 = rowsAt (m ((c : Thread nD τ).loc main_arg0)) (srcIdx (m ((c : Thread nD τ).loc main_arg1))) := by
  show StableHlo.after hostOps1 (W2 m ρ c) (Proc.devRef .tc main_v14) = _
  after_results
  exact W2_v14 m ρ c
theorem V3_v21 (c : Dev nD) : V3 m ρ c main_v21 = rowsAt (m ((c : Thread nD τ).loc main_arg0)) (dstIdx (m ((c : Thread nD τ).loc main_arg1))) := by
  show StableHlo.after hostOps1 (W2 m ρ c) (Proc.devRef .tc main_v21) = _
  after_results
  exact W2_v21 m ρ c
theorem V3_arg2 (c : Dev nD) : V3 m ρ c main_arg2 = m ((c : Thread nD τ).loc main_arg2) := by
  show StableHlo.after hostOps1 (W2 m ρ c) (Proc.devRef .tc main_arg2) = _
  after_results
  exact W2_arg2 m ρ c
theorem V3_v27 (c : Dev nD) : V3 m ρ c main_v27 = truncf .bf16 (m ((c : Thread nD τ).loc main_arg7)) bitsLt_bf16_f32 := by
  show StableHlo.after hostOps1 (W2 m ρ c) (Proc.devRef .tc main_v27) = _
  after_results
  rw [W2_arg7 m ρ c]
theorem V3_v28 (c : Dev nD) : V3 m ρ c main_v28 = truncf .bf16 (m ((c : Thread nD τ).loc main_arg9)) bitsLt_bf16_f32 := by
  show StableHlo.after hostOps1 (W2 m ρ c) (Proc.devRef .tc main_v28) = _
  after_results
  rw [W2_arg9 m ρ c]
theorem V3_v29 (c : Dev nD) : V3 m ρ c main_v29 = shapeCast S1x96 (m ((c : Thread nD τ).loc main_arg8)) shapeCasts_S96_S1x96 := by
  show StableHlo.after hostOps1 (W2 m ρ c) (Proc.devRef .tc main_v29) = _
  after_results
  rw [W2_arg8 m ρ c]
  rfl
theorem V3_v30 (c : Dev nD) : V3 m ρ c main_v30 = shapeCast S1x96 (m ((c : Thread nD τ).loc main_arg10)) shapeCasts_S96_S1x96 := by
  show StableHlo.after hostOps1 (W2 m ρ c) (Proc.devRef .tc main_v30) = _
  after_results
  rw [W2_arg10 m ρ c]
  rfl

/-! ## The two result arrays at the last boundary -/

/-- The edge result array holds what the edge launch leaves. -/
theorem W4_v31_arr (c : Dev nD) : W4 m ρ c (Proc.devRef .tc main_v31) = (dat1 (V3 m ρ) c).arrAt 7 cfg1.N :=
  W4_arr m ρ c 7

/-- The node result array is untouched by the second host stretch and the edge launch: it holds what the node launch
    left. -/
theorem W4_v26_arr (c : Dev nD) : W4 m ρ c (Proc.devRef .tc main_v26) = (dat0 (V1 m ρ) c).arrAt 6 cfg0.N := by
  rw [W4_of_ne m ρ c main_v26 (by decide)]
  have h : W3 m ρ c (Proc.devRef .tc main_v26) = W2 m ρ c (Proc.devRef .tc main_v26) := by
    show StableHlo.after hostOps1 (W2 m ρ c) (Proc.devRef .tc main_v26) = _
    after_results <;> rfl
  rw [h]
  exact W2_arr m ρ c 6

end Generic

/-! ## At the extended reals -/

section AtIdeal

variable (m : (ℓ : Loc nD τ sig) → Buf (Elt Ideal) ℓ) (ρ : Dev nD → PrngReg)

/-- With the weights only changed in float format and the biases only reshaped to one row, what the node launch
    leaves is the specification's node update of the arguments themselves. -/
theorem node_result_eq (X A : FVec Ideal S50000x96 .f32) (W1 : FVec Ideal S192x96 .f32) (b1 : FVec Ideal S96 .f32)
    (W2 : FVec Ideal S96x96 .f32) (b2 : FVec Ideal S96 .f32) :
    NodeArray.result X A (truncf .bf16 W1 bitsLt_bf16_f32) (shapeCast S1x96 b1 shapeCasts_S96_S1x96)
        (truncf .bf16 W2 bitsLt_bf16_f32) (shapeCast S1x96 b2 shapeCasts_S96_S1x96)
      = Spec.node X A W1 b1 W2 b2 := by
  funext i
  unfold NodeArray.result Spec.node
  simp only [shapeCast_a_1a_apply]
  rfl

/-- The same for the edge launch. -/
theorem edge_result_eq (S D : FVec Ideal S800000x96 .bf16) (E : FVec Ideal S800000x96 .f32) (W1 : FVec Ideal S288x96 .f32)
    (b1 : FVec Ideal S96 .f32) (W2 : FVec Ideal S96x96 .f32) (b2 : FVec Ideal S96 .f32) :
    EdgeArray.result S D E (truncf .bf16 W1 bitsLt_bf16_f32) (shapeCast S1x96 b1 shapeCasts_S96_S1x96)
        (truncf .bf16 W2 bitsLt_bf16_f32) (shapeCast S1x96 b2 shapeCasts_S96_S1x96)
      = Spec.edge S D E W1 b1 W2 b2 := by
  funext i
  unfold EdgeArray.result Spec.edge
  simp only [shapeCast_a_1a_apply]
  rfl

/-- The node result of the program, as a function of its arguments. -/
def nodeOf (c : Dev nD) : (⟨2, ![50000, 96]⟩ : Shape).Idx → EReal :=
  Spec.node (m ((c : Thread nD τ).loc main_arg0)) (agg (m ((c : Thread nD τ).loc main_arg1)) (m ((c : Thread nD τ).loc main_arg2))) (m ((c : Thread nD τ).loc main_arg3)) (m ((c : Thread nD τ).loc main_arg4))
    (m ((c : Thread nD τ).loc main_arg5)) (m ((c : Thread nD τ).loc main_arg6))

/-- The edge result of the program, as a function of its arguments. -/
def edgeOf (c : Dev nD) : (⟨2, ![800000, 96]⟩ : Shape).Idx → EReal :=
  Spec.edge (rowsAt (m ((c : Thread nD τ).loc main_arg0)) (srcIdx (m ((c : Thread nD τ).loc main_arg1)))) (rowsAt (m ((c : Thread nD τ).loc main_arg0)) (dstIdx (m ((c : Thread nD τ).loc main_arg1))))
    (m ((c : Thread nD τ).loc main_arg2)) (m ((c : Thread nD τ).loc main_arg7)) (m ((c : Thread nD τ).loc main_arg8)) (m ((c : Thread nD τ).loc main_arg9)) (m ((c : Thread nD τ).loc main_arg10))

theorem v26_eq (c : Dev nD) : W4 m ρ c (Proc.devRef .tc main_v26) = nodeOf m c := by
  rw [W4_v26_arr, NodeArray.final (V1 m ρ) c, V1_arg0, V1_v6, V1_v22, V1_v24, V1_v23, V1_v25]
  exact node_result_eq _ _ _ _ _ _

theorem v31_eq (c : Dev nD) : W4 m ρ c (Proc.devRef .tc main_v31) = edgeOf m c := by
  rw [W4_v31_arr, EdgeArray.final (V3 m ρ) c, V3_v14, V3_v21, V3_arg2, V3_v27, V3_v29, V3_v28, V3_v30]
  exact edge_result_eq _ _ _ _ _ _ _

/-- Every weakly fair execution of the program terminates, nothing faulting, with the node result array at the node
    update, the edge result array at the edge update, and every argument array as launched. -/
theorem run : θ_run defs (onTc (τ := τ) (main (F := Ideal))) ⟨m, fun _ => 0, ρ⟩ (fun r => ∀ c : Dev nD,
      r.2.mem ((c : Thread nD τ).loc main_v26) = nodeOf m c
      ∧ r.2.mem ((c : Thread nD τ).loc main_arg1) = m ((c : Thread nD τ).loc main_arg1)
      ∧ r.2.mem ((c : Thread nD τ).loc main_v31) = edgeOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c =>
    ⟨(Whole.at_v26 m ρ r h c).trans (v26_eq m ρ c),
     (Whole.at_ref m ρ main_arg1 (by decide) r h c).trans (W4_main_arg1 m ρ c),
     (Whole.at_v31 m ρ r h c).trans (v31_eq m ρ c),
     (Whole.at_ref m ρ main_arg0 (by decide) r h c).trans (W4_main_arg0 m ρ c),
     (Whole.at_ref m ρ main_arg1 (by decide) r h c).trans (W4_main_arg1 m ρ c),
     (Whole.at_ref m ρ main_arg2 (by decide) r h c).trans (W4_main_arg2 m ρ c),
     (Whole.at_ref m ρ main_arg3 (by decide) r h c).trans (W4_main_arg3 m ρ c),
     (Whole.at_ref m ρ main_arg4 (by decide) r h c).trans (W4_main_arg4 m ρ c),
     (Whole.at_ref m ρ main_arg5 (by decide) r h c).trans (W4_main_arg5 m ρ c),
     (Whole.at_ref m ρ main_arg6 (by decide) r h c).trans (W4_main_arg6 m ρ c),
     (Whole.at_ref m ρ main_arg7 (by decide) r h c).trans (W4_main_arg7 m ρ c),
     (Whole.at_ref m ρ main_arg8 (by decide) r h c).trans (W4_main_arg8 m ρ c),
     (Whole.at_ref m ρ main_arg9 (by decide) r h c).trans (W4_main_arg9 m ρ c),
     (Whole.at_ref m ρ main_arg10 (by decide) r h c).trans (W4_main_arg10 m ρ c)⟩)
    (Whole.run_named m ρ)

end AtIdeal

end Cert.KernelIdeal.Value

end
-- ==== Proof.RefRead.lean ====
/-
  The reference's run read one operation at a time (its generated run and read-at-an-index lemmas), gathered here
  for the bridge to the kernel's value.
-/
import proofs.«161185_j15642270892348_2_alg».proof.Proof.Gen.ReferenceIdeal.Run
import proofs.«161185_j15642270892348_2_alg».proof.Proof.Gen.ReferenceIdeal.Read
-- ==== Proof.RefValue.lean ====
/-
  The reference's two results are the node update and the edge update of the specification.

  The reference forms, for every node, the 192-entry row "node features, then summed incoming edge features", contracts
  it against the whole first weight matrix, adds the bias, rectifies, and applies the second layer; for every edge the
  288-entry row "source features, destination features, edge features", likewise. Reading its stages at an index, a
  contraction over a concatenated row is the sum of the contractions of the pieces against their bands of the matrix
  (`Mlp.hidden2_of_concat`, `Mlp.hidden3_of_concat`), which is the specification's banded form.
-/
import proofs.«161185_j15642270892348_2_alg».proof.Proof.RefRead
import proofs.«161185_j15642270892348_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The concatenated rows, band by band -/

/-- The first 96 entries of a node's concatenated row are its feature row. -/
theorem cat2_lo (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (r : Fin 50000) (j : Fin 96) : val_main_v5 (F := Ideal) x0 x1 x2 (ix2 r (Mlp.lo2 j)) = x0 (ix2 r j) := by
  unfold val_main_v5
  exact concatenate_pair_apply_left (t := S50000x192) (s₁ := S50000x96) (s₂ := S50000x96) (1 : Fin 2) x0 (val_main_v4 (F := Ideal) x1 x2)
    concatenates_S50000x96_S50000x96_S50000x192_d1 (ix2 r (Mlp.lo2 j)) rfl (ix2 r j)
    (fun b => match b with | ⟨0, _⟩ => rfl | ⟨1, _⟩ => rfl)

/-- The last 96 entries are the row of summed incoming edge features. -/
theorem cat2_hi (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (r : Fin 50000) (j : Fin 96) : val_main_v5 (F := Ideal) x0 x1 x2 (ix2 r (Mlp.hi2 j)) = val_main_v4 (F := Ideal) x1 x2 (ix2 r j) := by
  unfold val_main_v5
  exact concatenate_pair_apply_right (t := S50000x192) (s₁ := S50000x96) (s₂ := S50000x96) (1 : Fin 2) x0 (val_main_v4 (F := Ideal) x1 x2)
    concatenates_S50000x96_S50000x96_S50000x192_d1 (ix2 r (Mlp.hi2 j)) rfl rfl (ix2 r j)
    (fun b => match b with | ⟨0, _⟩ => fun _ => rfl | ⟨1, _⟩ => fun hne => absurd rfl hne)
    (by show j.val + 96 = 96 + j.val; omega)

/-- The three bands of an edge's concatenated row: source features, destination features, edge features. -/
theorem cat3_lo (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (r : Fin 800000) (j : Fin 96) : val_main_v33 (F := Ideal) x0 x1 x2 (ix2 r (Mlp.lo3 j)) = val_main_v23 (F := Ideal) x0 x1 (ix2 r j) := by
  unfold val_main_v33
  exact concatenate_apply_piece (t := S800000x288) (1 : Fin 2) [⟨S800000x96, val_main_v23 (F := Ideal) x0 x1⟩, ⟨S800000x96, val_main_v32 (F := Ideal) x0 x1⟩, ⟨S800000x96, x2⟩]
    concatenates_S800000x96_S800000x96_S800000x96_S800000x288_d1 (ix2 r (Mlp.lo3 j))
    0 (by show (0 : Nat) < 3; omega) S800000x96 (val_main_v23 (F := Ideal) x0 x1) rfl rfl 0 rfl (ix2 r j)
    (fun b => match b with | ⟨0, _⟩ => fun _ => rfl | ⟨1, _⟩ => fun hne => absurd rfl hne)
    (by show 0 + j.val = j.val; omega)
theorem cat3_mid (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (r : Fin 800000) (j : Fin 96) : val_main_v33 (F := Ideal) x0 x1 x2 (ix2 r (Mlp.mid3 j)) = val_main_v32 (F := Ideal) x0 x1 (ix2 r j) := by
  unfold val_main_v33
  exact concatenate_apply_piece (t := S800000x288) (1 : Fin 2) [⟨S800000x96, val_main_v23 (F := Ideal) x0 x1⟩, ⟨S800000x96, val_main_v32 (F := Ideal) x0 x1⟩, ⟨S800000x96, x2⟩]
    concatenates_S800000x96_S800000x96_S800000x96_S800000x288_d1 (ix2 r (Mlp.mid3 j))
    1 (by show (1 : Nat) < 3; omega) S800000x96 (val_main_v32 (F := Ideal) x0 x1) rfl rfl 96 rfl (ix2 r j)
    (fun b => match b with | ⟨0, _⟩ => fun _ => rfl | ⟨1, _⟩ => fun hne => absurd rfl hne)
    (by show 96 + j.val = 96 + j.val; omega)
theorem cat3_hi (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (r : Fin 800000) (j : Fin 96) : val_main_v33 (F := Ideal) x0 x1 x2 (ix2 r (Mlp.hi3 j)) = x2 (ix2 r j) := by
  unfold val_main_v33
  exact concatenate_apply_piece (t := S800000x288) (1 : Fin 2) [⟨S800000x96, val_main_v23 (F := Ideal) x0 x1⟩, ⟨S800000x96, val_main_v32 (F := Ideal) x0 x1⟩, ⟨S800000x96, x2⟩]
    concatenates_S800000x96_S800000x96_S800000x96_S800000x288_d1 (ix2 r (Mlp.hi3 j))
    2 (by show (2 : Nat) < 3; omega) S800000x96 x2 rfl rfl 192 rfl (ix2 r j)
    (fun b => match b with | ⟨0, _⟩ => fun _ => rfl | ⟨1, _⟩ => fun hne => absurd rfl hne)
    (by show 192 + j.val = 192 + j.val; omega)

/-! ## The node result -/

/-- The reference's node result at `(r, q)`: the node perceptron of row `r`. -/
theorem node_at (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (x3 : (⟨S192x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal))
    (r : Fin 50000) (q : Fin 96) :
    val_main_v14 (F := Ideal) x0 x1 x2 x3 x4 x5 x6 (ix2 r q)
      = Mlp.out (Mlp.hidden2 (fun j => x0 (ix2 r j)) (fun j => val_main_v4 (F := Ideal) x1 x2 (ix2 r j))
          (fun j k => x3 (ix2 (Mlp.lo2 j) k)) (fun j k => x3 (ix2 (Mlp.hi2 j) k)) (fun k => x4 (ix1 k)))
        (fun k q => x5 (ix2 k q)) (fun q => x6 (ix1 q)) q := by
  have e11l : ∀ k : Fin 96, lidx_main_v11 (ix2 r q) k = ix2 r k := fun k => funext fun a => Fin.ext (by
    match a with | ⟨0, _⟩ => rfl | ⟨1, _⟩ => rfl)
  have e11r : ∀ k : Fin 96, ridx_main_v11 (ix2 r q) k = ix2 k q := fun k => funext fun a => Fin.ext (by
    match a with | ⟨0, _⟩ => rfl | ⟨1, _⟩ => rfl)
  have e6l : ∀ (k : Fin 96) (k' : Fin 192), lidx_main_v6 (ix2 r k) k' = ix2 r k' := fun k k' => funext fun a => Fin.ext (by
    match a with | ⟨0, _⟩ => rfl | ⟨1, _⟩ => rfl)
  have e6r : ∀ (k : Fin 96) (k' : Fin 192), ridx_main_v6 (ix2 r k) k' = ix2 k' k := fun k k' => funext fun a => Fin.ext (by
    match a with | ⟨0, _⟩ => rfl | ⟨1, _⟩ => rfl)
  have e8 : ∀ k : Fin 96, idx_main_v7 (idx_main_v8 (ix2 r k)) = ix1 k := fun k => funext fun a => Fin.ext (by
    match a with | ⟨0, _⟩ => rfl)
  have e13 : idx_main_v12 (idx_main_v13 (ix2 r q)) = ix1 q := funext fun a => Fin.ext (by
    match a with | ⟨0, _⟩ => rfl)
  simp only [val_main_v14_apply, val_main_v11_apply, val_main_v13_apply, val_main_v12_apply, e11l, e11r, val_main_v10_apply,
    val_main_v9_apply, val_main_v6_apply, val_main_v8_apply, val_main_v7_apply, val_main_call0_v0_apply, val_main_call0_cst_apply,
    e6l, e6r, e8, e13, Ideal.addf_def, Ideal.maximumf_def, Ideal.ofBits_def]
  unfold Mlp.out
  congr 1
  refine Finset.sum_congr rfl fun k _ => ?_
  congr 1
  exact Mlp.hidden2_of_concat (fun j => x0 (ix2 r j)) (fun j => val_main_v4 (F := Ideal) x1 x2 (ix2 r j))
    (fun k' => val_main_v5 (F := Ideal) x0 x1 x2 (ix2 r k')) (fun a b => x3 (ix2 a b)) (fun k => x4 (ix1 k))
    (fun j => cat2_lo x0 x1 x2 r j) (fun j => cat2_hi x0 x1 x2 r j) k

/-- The reference's node result is the node update of the node features, the summed incoming edge features it
    scatters, and the weights. -/
theorem node_eq (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (x3 : (⟨S192x96, .f32⟩ : BufTy).Contents (Elt Ideal)) (x4 : (⟨S96, .f32⟩ : BufTy).Contents (Elt Ideal)) (x5 : (⟨S96x96, .f32⟩ : BufTy).Contents (Elt Ideal)) (x6 : (⟨S96, .f32⟩ : BufTy).Contents (Elt Ideal)) :
    val_main_v14 (F := Ideal) x0 x1 x2 x3 x4 x5 x6 = Spec.node x0 (val_main_v4 (F := Ideal) x1 x2) x3 x4 x5 x6 := by
  funext i
  obtain ⟨r, q, rfl⟩ : ∃ (r : Fin 50000) (q : Fin 96), i = ix2 r q := ⟨i 0, i 1, eq_ix2 i⟩
  exact node_at x0 x1 x2 x3 x4 x5 x6 r q

/-! ## The edge result -/

/-- The reference's edge result at `(r, q)`: the edge perceptron of row `r`. -/
theorem edge_at (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (x7 : (⟨S288x96, .f32⟩ : BufTy).Contents (Elt Ideal)) (x8 : (⟨S96, .f32⟩ : BufTy).Contents (Elt Ideal)) (x9 : (⟨S96x96, .f32⟩ : BufTy).Contents (Elt Ideal)) (x10 : (⟨S96, .f32⟩ : BufTy).Contents (Elt Ideal))
    (r : Fin 800000) (q : Fin 96) :
    val_main_v42 (F := Ideal) x0 x1 x2 x7 x8 x9 x10 (ix2 r q)
      = Mlp.out (Mlp.hidden3 (fun j => val_main_v23 (F := Ideal) x0 x1 (ix2 r j)) (fun j => val_main_v32 (F := Ideal) x0 x1 (ix2 r j))
          (fun j => x2 (ix2 r j))
          (fun j k => x7 (ix2 (Mlp.lo3 j) k)) (fun j k => x7 (ix2 (Mlp.mid3 j) k)) (fun j k => x7 (ix2 (Mlp.hi3 j) k)) (fun k => x8 (ix1 k)))
        (fun k q => x9 (ix2 k q)) (fun q => x10 (ix1 q)) q := by
  have e39l : ∀ k : Fin 96, lidx_main_v39 (ix2 r q) k = ix2 r k := fun k => funext fun a => Fin.ext (by
    match a with | ⟨0, _⟩ => rfl | ⟨1, _⟩ => rfl)
  have e39r : ∀ k : Fin 96, ridx_main_v39 (ix2 r q) k = ix2 k q := fun k => funext fun a => Fin.ext (by
    match a with | ⟨0, _⟩ => rfl | ⟨1, _⟩ => rfl)
  have e34l : ∀ (k : Fin 96) (k' : Fin 288), lidx_main_v34 (ix2 r k) k' = ix2 r k' := fun k k' => funext fun a => Fin.ext (by
    match a with | ⟨0, _⟩ => rfl | ⟨1, _⟩ => rfl)
  have e34r : ∀ (k : Fin 96) (k' : Fin 288), ridx_main_v34 (ix2 r k) k' = ix2 k' k := fun k k' => funext fun a => Fin.ext (by
    match a with | ⟨0, _⟩ => rfl | ⟨1, _⟩ => rfl)
  have e36 : ∀ k : Fin 96, idx_main_v35 (idx_main_v36 (ix2 r k)) = ix1 k := fun k => funext fun a => Fin.ext (by
    match a with | ⟨0, _⟩ => rfl)
  have e41 : idx_main_v40 (idx_main_v41 (ix2 r q)) = ix1 q := funext fun a => Fin.ext (by
    match a with | ⟨0, _⟩ => rfl)
  simp only [val_main_v42_apply, val_main_v39_apply, val_main_v41_apply, val_main_v40_apply, e39l, e39r, val_main_v38_apply,
    val_main_v37_apply, val_main_v34_apply, val_main_v36_apply, val_main_v35_apply, val_main_call1_v0_apply, val_main_call1_cst_apply,
    e34l, e34r, e36, e41, Ideal.addf_def, Ideal.maximumf_def, Ideal.ofBits_def]
  unfold Mlp.out
  congr 1
  refine Finset.sum_congr rfl fun k _ => ?_
  congr 1
  exact Mlp.hidden3_of_concat (fun j => val_main_v23 (F := Ideal) x0 x1 (ix2 r j)) (fun j => val_main_v32 (F := Ideal) x0 x1 (ix2 r j))
    (fun j => x2 (ix2 r j))
    (fun k' => val_main_v33 (F := Ideal) x0 x1 x2 (ix2 r k')) (fun a b => x7 (ix2 a b)) (fun k => x8 (ix1 k))
    (fun j => cat3_lo x0 x1 x2 r j) (fun j => cat3_mid x0 x1 x2 r j) (fun j => cat3_hi x0 x1 x2 r j) k

/-- The reference's edge result is the edge update of the gathered end-node features, the edge features and the
    weights. -/
theorem edge_eq (x0 : (⟨S50000x96, .f32⟩ : BufTy).Contents (Elt Ideal)) (x1 : (⟨S2x800000, .i32⟩ : BufTy).Contents (Elt Ideal)) (x2 : (⟨S800000x96, .f32⟩ : BufTy).Contents (Elt Ideal))
    (x7 : (⟨S288x96, .f32⟩ : BufTy).Contents (Elt Ideal)) (x8 : (⟨S96, .f32⟩ : BufTy).Contents (Elt Ideal)) (x9 : (⟨S96x96, .f32⟩ : BufTy).Contents (Elt Ideal)) (x10 : (⟨S96, .f32⟩ : BufTy).Contents (Elt Ideal)) :
    val_main_v42 (F := Ideal) x0 x1 x2 x7 x8 x9 x10
      = Spec.edge (val_main_v23 (F := Ideal) x0 x1) (val_main_v32 (F := Ideal) x0 x1) x2 x7 x8 x9 x10 := by
  funext i
  obtain ⟨r, q, rfl⟩ : ∃ (r : Fin 800000) (q : Fin 96), i = ix2 r q := ⟨i 0, i 1, eq_ix2 i⟩
  exact edge_at x0 x1 x2 x7 x8 x9 x10 r q

end Cert.ReferenceIdeal.RefValue

end
-- ==== Proof.lean ====
/-
  One message-passing step of a graph network — every node updated by a two-layer perceptron of its own features and
  the sum of its incoming edges' features, every edge by a two-layer perceptron of its two end nodes' features and its
  own — computed by two tiled kernels, against the same step written with whole-array operations.

  On the extended reals the two programs are one function of the arguments. Both build the per-node sums by the same
  scatter-add and the end-node rows by the same gathers (the kernel program gathers from a copy of the node features
  in a narrower float format, which is the same array of extended reals). The perceptrons act row by row. Where the
  whole-array program contracts the concatenated input row against the whole first weight matrix, the kernels contract
  each input row against its own band of the matrix and add: a sum over 192 (or 288) positions split into its bands
  of 96, which needs only that addition is commutative and associative — true at the infinities as well, so the
  finiteness of the inputs is never used. The tiling (10 blocks of 5000 node rows, 200 blocks of 4000 edge rows)
  does not change any row's value, and the blocks cover the result arrays.

  The three frames are the generated ones (the reference's is its generated run with the results dropped); the
  idealization rewrote nothing, so there is nothing to preserve; the value claim joins the kernel program's run with
  both result arrays named (`KernelIdeal.Value.run`) to the reference's generated run, through the specification
  (`Spec.node`, `Spec.edge`).
-/
import proofs.«161185_j15642270892348_2_alg».proof.Defs
import proofs.«161185_j15642270892348_2_alg».proof.Proof.Gen.Kernel
import proofs.«161185_j15642270892348_2_alg».proof.Proof.Gen.Kernel.Skeleton
import proofs.«161185_j15642270892348_2_alg».proof.Proof.Gen.Kernel.Launch
import proofs.«161185_j15642270892348_2_alg».proof.Proof.Gen.Kernel.Points
import proofs.«161185_j15642270892348_2_alg».proof.Proof.Gen.Kernel.Frame
import proofs.«161185_j15642270892348_2_alg».proof.Proof.Gen.KernelIdeal
import proofs.«161185_j15642270892348_2_alg».proof.Proof.Gen.KernelIdeal.Skeleton
import proofs.«161185_j15642270892348_2_alg».proof.Proof.Gen.KernelIdeal.Launch
import proofs.«161185_j15642270892348_2_alg».proof.Proof.Gen.KernelIdeal.Points
import proofs.«161185_j15642270892348_2_alg».proof.Proof.Gen.KernelIdeal.Frame
import proofs.«161185_j15642270892348_2_alg».proof.Proof.Gen.ReferenceIdeal
import proofs.«161185_j15642270892348_2_alg».proof.Proof.Gen.ReferenceIdeal.Run
import proofs.«161185_j15642270892348_2_alg».proof.Proof.Gen.ReferenceIdeal.Read
import proofs.«161185_j15642270892348_2_alg».proof.Proof.Gen.Pre_finite_inputs
import proofs.«161185_j15642270892348_2_alg».proof.Proof.KernelValue
import proofs.«161185_j15642270892348_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories agreeing on the arguments both programs end with the node update, the edge list itself, and the
    edge update: the kernel program by its named run, the reference by its generated run read as the specification,
    the scatter-add and the gathers being one text on both sides. -/
theorem algebraic : Cert.algebraic_KernelIdeal_ReferenceIdeal := by
  intro m ρ m' ρ' _ hagree
  refine ⟨fun c => Cert.KernelIdeal.Value.nodeOf m c,
    fun c => m ((c : Thread Cert.KernelIdeal.nD Cert.KernelIdeal.τ).loc Cert.KernelIdeal.main_arg1),
    fun c => Cert.KernelIdeal.Value.edgeOf m c, Cert.KernelIdeal.Value.run m ρ, ?_⟩
  refine (θ_run Cert.ReferenceIdeal.defs _ _).mono (fun r h c => ?_) (Cert.ReferenceIdeal.Value.run (F := Ideal) m' ρ')
  obtain ⟨h14, h1, h42, hrest⟩ := h c
  obtain ⟨a0, a1, a2, a3, a4, a5, a6, a7, a8, a9, a10⟩ := hagree c
  refine ⟨?_, ?_, ?_, hrest⟩
  · rw [h14, Cert.ReferenceIdeal.Read.val_main_v14_eq, Cert.ReferenceIdeal.RefValue.node_eq, a0, a1, a2, a3, a4, a5, a6]
    rfl
  · rw [h1, a1]
  · rw [h42, Cert.ReferenceIdeal.Read.val_main_v42_eq, Cert.ReferenceIdeal.RefValue.edge_eq, a0, a1, a2, a7, a8, a9, a10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
